-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S7x7 : Shape := ⟨2, ![7, 7]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S2x10000x10000 : S_.BroadcastsInDim S2x10000x10000 (![] : Fin 0 → Fin S2x10000x10000.rank)
  reducesTo_S2x10000x10000_S_d0_1_2 : S2x10000x10000.ReducesTo [0, 1, 2] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_
  bcast_S_S7x7 : S_.BroadcastsInDim S7x7 (![] : Fin 0 → Fin S7x7.rank)
  reducesTo_S7x7_S_d0_1 : S7x7.ReducesTo [0, 1] S_

variable [Facts]

def fn_part2 {F : FTy → Type} [FloatOps F] (main_arg7 : FVec F S7 .f32) (main_v33 : IVec S_ 1) : IVec S_ 1 :=
  let main_v34 : FVec F S7 .f32 := Host.absf main_arg7
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg4 : FVec F S16x7 .f32) (main_arg5 : FVec F S7 .f32) (main_arg6 : FVec F S7x7 .f32) (main_arg7 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg4
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  let main_v29 : FVec F S7x7 .f32 := Host.absf main_arg6
  let main_cst_10 : FVec F S_ .f32 := constant S_ .f32 0x7F800000#32
  let main_v30 : FVec F S7x7 .f32 := broadcastInDim S7x7 ![] bcast_S_S7x7 main_cst_10
  let main_v31 : IVec S7x7 1 := cmpf .olt main_v29 main_v30
  let main_c_11 : IVec S_ 1 := constantI S_ 1 1#1
  let main_v32 : IVec S_ 1 := (fun x v => Host.reduce IntOp.andi x v reducesTo_S7x7_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S2x10000x10000 .f32) (main_arg2 : FVec F S128x16 .f32) (main_arg3 : FVec F S16 .f32) (main_arg4 : FVec F S16x7 .f32) (main_arg5 : FVec F S7 .f32) (main_arg6 : FVec F S7x7 .f32) (main_arg7 : FVec F S7 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S2x10000x10000 .f32 := Host.absf main_arg1
  let main_cst_0 : FVec F S_ .f32 := constant S_ .f32 0x7F800000#32
  let main_v5 : FVec F S2x10000x10000 .f32 := broadcastInDim S2x10000x10000 ![] bcast_S_S2x10000x10000 main_cst_0
  let main_v6 : IVec S2x10000x10000 1 := cmpf .olt main_v4 main_v5
  let main_c_1 : IVec S_ 1 := constantI S_ 1 1#1
  let main_v7 : IVec S_ 1 := (fun x v => Host.reduce IntOp.andi x v reducesTo_S2x10000x10000_S_d0_1_2 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_v13 main_v16
-- ==== Kernel.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S7x7 : Shape := ⟨2, ![7, 7]⟩
abbrev S1x16 : Shape := ⟨2, ![1, 16]⟩
abbrev S1x7 : Shape := ⟨2, ![1, 7]⟩
abbrev S10000x7 : Shape := ⟨2, ![10000, 7]⟩
abbrev S1x400x10000 : Shape := ⟨3, ![1, 400, 10000]⟩
abbrev S10000x16 : Shape := ⟨2, ![10000, 16]⟩
abbrev S400x10000 : Shape := ⟨2, ![400, 10000]⟩
abbrev S400x16 : Shape := ⟨2, ![400, 16]⟩
abbrev S400x7 : Shape := ⟨2, ![400, 7]⟩
abbrev S400 : Shape := ⟨1, ![400]⟩
abbrev S400x1 : Shape := ⟨2, ![400, 1]⟩

abbrev nBuf : Space → Nat
  | .hbm => 12
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S7x7, .f32⟩
  | .hbm, ⟨7, _⟩ => ⟨S7, .f32⟩
  | .hbm, ⟨8, _⟩ => ⟨S1x16, .f32⟩
  | .hbm, ⟨9, _⟩ => ⟨S1x7, .f32⟩
  | .hbm, ⟨10, _⟩ => ⟨S1x7, .f32⟩
  | .hbm, ⟨11, _⟩ => ⟨S10000x7, .f32⟩
  | .local _ .vmem, ⟨0, _⟩ => ⟨S1x400x10000, .f32⟩
  | .local _ .vmem, ⟨1, _⟩ => ⟨S1x400x10000, .f32⟩
  | .local _ .vmem, ⟨2, _⟩ => ⟨S10000x128, .f32⟩
  | .local _ .vmem, ⟨3, _⟩ => ⟨S128x16, .f32⟩
  | .local _ .vmem, ⟨4, _⟩ => ⟨S1x16, .f32⟩
  | .local _ .vmem, ⟨5, _⟩ => ⟨S16x7, .f32⟩
  | .local _ .vmem, ⟨6, _⟩ => ⟨S1x7, .f32⟩
  | .local _ .vmem, ⟨7, _⟩ => ⟨S7x7, .f32⟩
  | .local _ .vmem, ⟨8, _⟩ => ⟨S1x7, .f32⟩
  | .local _ .vmem, ⟨9, _⟩ => ⟨S10000x7, .f32⟩
  | .local _ .vmem, ⟨10, _⟩ => ⟨S10000x16, .f32⟩
  | .local _ .vmem, ⟨11, _⟩ => ⟨S10000x7, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32_1 : BitVec 32 := 25#32
  let v4 : BitVec 1 := Scalar.cmpi .slt arg0 c25_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v24 : BitVec 32 := Scalar.muli v0 c400_i32
  let v25 : Index := Scalar.indexCast v24
  let c0_15 : Index := 0#32
  ![v25.toNat, 0]
def k0_cond3 (i : grid0.Coords) : BitVec 1 :=
  let arg0 : BitVec 32 := BitVec.ofNat 32 (i 0).val
  let c25_i32_3 : BitVec 32 := 25#32
  let v7 : BitVec 1 := Scalar.cmpi .sge arg0 c25_i32_3
  let v8 : BitVec 32 := Scalar.extui v7
  let c0_i32_4 : BitVec 32 := 0#32
  let v9 : BitVec 1 := Scalar.cmpi .ne v8 c0_i32_4
  v9

def k0_off2 (i : grid0.Coords) : Fin 2 → Nat :=
  let arg0 : BitVec 32 := BitVec.ofNat 32 (i 0).val
  let c25_i32 : BitVec 32 := 25#32
  let v0 : BitVec 32 := Scalar.remsi arg0 c25_i32
  let c400_i32 : BitVec 32 := 400#32
  let v36 : BitVec 32 := Scalar.muli v0 c400_i32
  let v37 : Index := Scalar.indexCast v36
  let c0_18 : Index := 0#32
  ![v37.toNat, 0]
def cc0_transform_0 (i : grid0.Coords) : Fin 3 → Nat :=
  let arg0 : BitVec 32 := BitVec.ofNat 32 (i 0).val
  let c25_i32 : BitVec 32 := 25#32
  let v0 : BitVec 32 := Scalar.divsi arg0 c25_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c25_i32 c0_i32_1
  let v7 : BitVec 32 := Scalar.extui v6
  let c0_i32_2 : BitVec 32 := 0#32
  let v8 : BitVec 1 := Scalar.cmpi .slt c25_i32 c0_i32_2
  let v9 : BitVec 32 := Scalar.extui v8
  let v10 : BitVec 32 := Scalar.subi v7 v9
  let v11 : BitVec 1 := Scalar.cmpi .ne v5 v10
  let v12 : BitVec 32 := Scalar.remsi arg0 c25_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c25_i32_4 : BitVec 32 := 25#32
  let c0_i32_5 : BitVec 32 := 0#32
  let v17 : BitVec 1 := Scalar.cmpi .eq c25_i32_4 c0_i32_5
  let c1_i32_6 : BitVec 32 := 1#32
  let v18 : BitVec 32 := Scalar.select v17 c1_i32_6 c25_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x7 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10000x7 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  shapeCasts_S16_S1x16 : S16.ShapeCasts S1x16
  shapeCasts_S7_S1x7 : S7.ShapeCasts S1x7
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x400x10000_S1x400x10000_0_0_0 : ∀ a, (![0, 0, 0] : Fin 3 → Nat) a + S1x400x10000.size a ≤ S1x400x10000.size a
  h_S1x400x10000 : 0 < S1x400x10000.numel
  shapeCasts_S1x400x10000_S400x10000 : S1x400x10000.ShapeCasts S400x10000
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x7_S16x7_0_0 : ∀ a, (![0, 0] : Fin 2 → Nat) a + S16x7.size a ≤ S16x7.size a
  h_S16x7 : 0 < S16x7.numel
  h_S400x7 : 0 < S400x7.numel
  shapeCasts_S400x7_S400x7 : S400x7.ShapeCasts S400x7
  inb_S10000x7_S10000x7_0_0 : ∀ a, (![0, 0] : Fin 2 → Nat) a + S10000x7.size a ≤ S10000x7.size a
  h_S10000x7 : 0 < S10000x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  inb_S7x7_S7x7_0_0 : ∀ a, (![0, 0] : Fin 2 → Nat) a + S7x7.size a ≤ S7x7.size a
  h_S7x7 : 0 < S7x7.numel
  reduces_S400x7_S400 : S400x7.Reduces [1] S400
  shapeCasts_S400_S400x1 : S400.ShapeCasts S400x1
  broadcasts_S400x1_S400x7 : S400x1.Broadcasts S400x7
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x7_S400x7_1_0_0_1_n_n_wf : DotDims.WF S400x16 S16x7 S400x7 [1] [0] [0] [1] [] []
  dot_S400x10000_S10000x7_S400x7_1_0_0_1_n_n_wf : DotDims.WF S400x10000 S10000x7 S400x7 [1] [0] [0] [1] [] []
  dot_S400x7_S7x7_S400x7_1_0_0_1_n_n_wf : DotDims.WF S400x7 S7x7 S400x7 [1] [0] [0] [1] [] []
  hrank0 : 0 < grid0.rank
  k0_off1_inb : ∀ i : grid0.Coords, ∀ (k0_h2 : k0_cond2 i = 1#1), ∀ a, (k0_off1 i) a + S400x7.size a ≤ S10000x7.size a
  k0_off2_inb : ∀ i : grid0.Coords, ∀ (k0_h3 : k0_cond3 i = 1#1), ∀ a, (k0_off2 i) a + S400x7.size a ≤ S10000x7.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x10000.size a ≤ S2x10000x10000.size a
  hwx0_0 : ∀ i : grid0.Coords, EltTy.bits .f32 = 32 ∨ (Rect.block (s := S2x10000x10000) S1x400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x7.size a ≤ S16x7.size a
  hwx0_4 : ∀ i : grid0.Coords, EltTy.bits .f32 = 32 ∨ (Rect.block (s := S16x7) S16x7.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x7.size a ≤ S1x7.size a
  hwx0_5 : ∀ i : grid0.Coords, EltTy.bits .f32 = 32 ∨ (Rect.block (s := S1x7) S1x7.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x7.size a ≤ S7x7.size a
  hwx0_6 : ∀ i : grid0.Coords, EltTy.bits .f32 = 32 ∨ (Rect.block (s := S7x7) S7x7.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x7.size a ≤ S1x7.size a
  hwx0_7 : ∀ i : grid0.Coords, EltTy.bits .f32 = 32 ∨ (Rect.block (s := S1x7) S1x7.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S10000x7.size a ≤ S10000x7.size a
  hwx0_8 : ∀ i : grid0.Coords, EltTy.bits .f32 = 32 ∨ (Rect.block (s := S10000x7) S10000x7.size (cc0_transform_8 i) (hinb0_8 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x7_S400x7_1_0_0_1_n_n : DotDims S400x16 S16x7 S400x7 where
  lhsContracting := [1]
  rhsContracting := [0]
  lhsNonContracting := [0]
  rhsNonContracting := [1]
  lhsBatch := []
  rhsBatch := []
  wf := dot_S400x16_S16x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf
def dot_S400x7_S7x7_S400x7_1_0_0_1_n_n : DotDims S400x7 S7x7 S400x7 where
  lhsContracting := [1]
  rhsContracting := [0]
  lhsNonContracting := [0]
  rhsNonContracting := [1]
  lhsBatch := []
  rhsBatch := []
  wf := dot_S400x7_S7x7_S400x7_1_0_0_1_n_n_wf

abbrev win0_0 : Pipeline.Window sig grid0 :=
  Pipeline.Window.ofSpec (Memref.whole main_arg1) S1x400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x7.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S7x7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x7.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S10000x7.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S2x10000x10000 : Shape := ⟨3, ![2, 10000, 10000]⟩
abbrev S128x16 : Shape := ⟨2, ![128, 16]⟩
abbrev S16 : Shape := ⟨1, ![16]⟩
abbrev S16x7 : Shape := ⟨2, ![16, 7]⟩
abbrev S7 : Shape := ⟨1, ![7]⟩
abbrev S7x7 : Shape := ⟨2, ![7, 7]⟩
abbrev S1x10000x10000 : Shape := ⟨3, ![1, 10000, 10000]⟩
abbrev S10000x10000 : Shape := ⟨2, ![10000, 10000]⟩
abbrev S10000x16 : Shape := ⟨2, ![10000, 16]⟩
abbrev S1x16 : Shape := ⟨2, ![1, 16]⟩
abbrev S_ : Shape := ⟨0, ![]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x10000x10000, .f32⟩
  | .hbm, ⟨2, _⟩ => ⟨S128x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S7x7, .f32⟩
  | .hbm, ⟨7, _⟩ => ⟨S7, .f32⟩
  | .hbm, ⟨8, _⟩ => ⟨S1x10000x10000, .f32⟩
  | .hbm, ⟨9, _⟩ => ⟨S10000x10000, .f32⟩
  | .hbm, ⟨10, _⟩ => ⟨S10000x16, .f32⟩
  | .hbm, ⟨11, _⟩ => ⟨S10000x16, .f32⟩
  | .hbm, ⟨12, _⟩ => ⟨S1x16, .f32⟩
  | .hbm, ⟨13, _⟩ => ⟨S10000x16, .f32⟩
  | .hbm, ⟨14, _⟩ => ⟨S10000x16, .f32⟩
  | .hbm, ⟨15, _⟩ => ⟨S_, .f32⟩
  | .hbm, ⟨16, _⟩ => ⟨S10000x16, .f32⟩
  | .hbm, ⟨17, _⟩ => ⟨S10000x16, .f32⟩
  | .hbm, ⟨18, _⟩ => ⟨S1x10000x10000, .f32⟩
  | .hbm, ⟨19, _⟩ => ⟨S10000x10000, .f32⟩
  | .hbm, ⟨20, _⟩ => ⟨S10000x7, .f32⟩
  | .hbm, ⟨21, _⟩ => ⟨S10000x7, .f32⟩
  | .hbm, ⟨22, _⟩ => ⟨S1x7, .f32⟩
  | .hbm, ⟨23, _⟩ => ⟨S10000x7, .f32⟩
  | .hbm, ⟨24, _⟩ => ⟨S10000x7, .f32⟩
  | .hbm, ⟨25, _⟩ => ⟨S10000x7, .f32⟩
  | .hbm, ⟨26, _⟩ => ⟨S1x7, .f32⟩
  | .hbm, ⟨27, _⟩ => ⟨S10000x7, .f32⟩
  | .hbm, ⟨28, _⟩ => ⟨S10000x7, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x7, .f32⟩
  | .hbm, ⟨36, _⟩ => ⟨S10000x7, .f32⟩
  | .hbm, ⟨37, _⟩ => ⟨S10000x7, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x7, .f32⟩
  | .hbm, ⟨43, _⟩ => ⟨S10000x7, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_cst : Ref sig .tc := ⟨.hbm, 29, rfl⟩
abbrev main_call1_v0 : Ref sig .tc := ⟨.hbm, 30, rfl⟩
abbrev main_call1_cst_0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_cst_1 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_v19 : Ref sig .tc := ⟨.hbm, 43, rfl⟩

abbrev nD : Nat := 1
abbrev τ : Topo := Topo.v7x

variable {F : FTy → Type} [FloatOps F]

class Facts₀ : Prop where
  slices_S2x10000x10000_S1x10000x10000_0_0_0 : S2x10000x10000.Slices ![0, 0, 0] S1x10000x10000
  shapeCasts_S1x10000x10000_S10000x10000 : S1x10000x10000.ShapeCasts S10000x10000
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  slices_S2x10000x10000_S1x10000x10000_1_0_0 : S2x10000x10000.Slices ![1, 0, 0] S1x10000x10000
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x7_S10000x7_1_0_0_1_n_n_wf : DotDims.WF S10000x16 S16x7 S10000x7 [1] [0] [0] [1] [] []
  dot_S10000x10000_S10000x7_S10000x7_1_0_0_1_n_n_wf : DotDims.WF S10000x10000 S10000x7 S10000x7 [1] [0] [0] [1] [] []
  dot_S10000x7_S7x7_S10000x7_1_0_0_1_n_n_wf : DotDims.WF S10000x7 S7x7 S10000x7 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x7_S10000x7_1_0_0_1_n_n : DotDims S10000x16 S16x7 S10000x7 where
  lhsContracting := [1]
  rhsContracting := [0]
  lhsNonContracting := [0]
  rhsNonContracting := [1]
  lhsBatch := []
  rhsBatch := []
  wf := dot_S10000x16_S16x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf
def dot_S10000x7_S7x7_S10000x7_1_0_0_1_n_n : DotDims S10000x7 S7x7 S10000x7 where
  lhsContracting := [1]
  rhsContracting := [0]
  lhsNonContracting := [0]
  rhsNonContracting := [1]
  lhsBatch := []
  rhsBatch := []
  wf := dot_S10000x7_S7x7_S10000x7_1_0_0_1_n_n_wf

class Facts : Prop extends Facts₀ where

variable [Facts]
-- ==== Proof.BodyK.Base.lean ====
import proofs.«114416_g2834678415609_cont_sun_c4_672_25_alg».proof.Proof.Gen.Kernel.Frame
import proofs.«114416_g2834678415609_cont_sun_c4_672_25_alg».proof.Proof.Gen.Kernel.Skeleton
import proofs.«114416_g2834678415609_cont_sun_c4_672_25_alg».proof.Proof.Gen.Kernel.Points
import proofs.«114416_g2834678415609_cont_sun_c4_672_25_alg».proof.Proof.Gen.Kernel.Launch
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

/-! ## The three branches of the body, decided over the grid

The body runs three guarded blocks: the first at point 0 only, the second at the points below 25, the third at the
points from 25 on. Points 0 … 24 walk the row blocks of the first adjacency matrix, points 25 … 49 those of the second;
the row block of point `t` starts at row `400 * (t % 25)`. -/

/-- The guard of the first block: the grid coordinate is 0. -/
abbrev condA (i : grid0.Coords) : Prop := (Scalar.cmpi .ne (Scalar.extui (Scalar.cmpi .eq (BitVec.ofNat 32 (i 0).val) 0#32)) 0#32) = 1#1
/-- The guard of the second block: the grid coordinate is below 25. -/
abbrev condB (i : grid0.Coords) : Prop := k0_cond2 i = 1#1
/-- The guard of the third block: the grid coordinate is at least 25. -/
abbrev condC (i : grid0.Coords) : Prop := k0_cond3 i = 1#1

theorem condA_iff : ∀ t : Fin cfg0.N, condA (grid0.coords t) ↔ t.val = 0 :=
  (by decide +kernel : ∀ t : Fin grid0.N, condA (grid0.coords t) ↔ t.val = 0)
theorem condB_iff : ∀ t : Fin cfg0.N, condB (grid0.coords t) ↔ t.val < 25 :=
  (by decide +kernel : ∀ t : Fin grid0.N, condB (grid0.coords t) ↔ t.val < 25)
theorem condC_iff : ∀ t : Fin cfg0.N, condC (grid0.coords t) ↔ 25 ≤ t.val :=
  (by decide +kernel : ∀ t : Fin grid0.N, condC (grid0.coords t) ↔ 25 ≤ t.val)

/-- The rows the second block stores into: they start at `400 * (t % 25)`, in column 0. -/
theorem off1_eq (t : Fin cfg0.N) : k0_off1 (grid0.coords t) = ![400 * (t.val % 25), 0] := by
  have h : ∀ t : Fin cfg0.N, k0_off1 (grid0.coords t) 0 = 400 * (t.val % 25) ∧ k0_off1 (grid0.coords t) 1 = 0 :=
    (by decide +kernel : ∀ t : Fin grid0.N, k0_off1 (grid0.coords t) 0 = 400 * (t.val % 25) ∧ k0_off1 (grid0.coords t) 1 = 0)
  funext a; match a with | ⟨0, _⟩ => exact (h t).1 | ⟨1, _⟩ => exact (h t).2
/-- The rows the third block stores into: they start at `400 * (t % 25)`, in column 0. -/
theorem off2_eq (t : Fin cfg0.N) : k0_off2 (grid0.coords t) = ![400 * (t.val % 25), 0] := by
  have h : ∀ t : Fin cfg0.N, k0_off2 (grid0.coords t) 0 = 400 * (t.val % 25) ∧ k0_off2 (grid0.coords t) 1 = 0 :=
    (by decide +kernel : ∀ t : Fin grid0.N, k0_off2 (grid0.coords t) 0 = 400 * (t.val % 25) ∧ k0_off2 (grid0.coords t) 1 = 0)
  funext a; match a with | ⟨0, _⟩ => exact (h t).1 | ⟨1, _⟩ => exact (h t).2

theorem N_eq : cfg0.N = 50 := N_0

/-! ## The buffers the body is called on -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x7 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x7 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S7x7 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x7 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S10000x7 .f32 := win0_8.stage (cfg0.slots t 8)
abbrev hs8 (t : Fin cfg0.N) : (ms8 t).IsWhole := hstage0_8 ((cfg0.slots t 8).cast nbuf0_8)
/-- The two scratch buffers: the product of the features with the first weight matrix, and the first layer's output. -/
abbrev scA : Memref sig .tc .vmem S10000x16 .f32 := Memref.whole cc0_scratch0
abbrev scB : Memref sig .tc .vmem S10000x7 .f32 := Memref.whole cc0_scratch1

/-- What the launch hands the region besides the windows: the two scratch buffers at some contents and the
    generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.Kernel.Hand
end
-- ==== Proof.BodyK.RunA.lean ====
import proofs.«114416_g2834678415609_cont_sun_c4_672_25_alg».proof.Proof.BodyK.Base
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

set_option maxHeartbeats 1000000 in
/-- The body at point 0 (all of the first two blocks, none of the third), on whole buffers at given contents: it runs,
    hands the inputs and the output buffer back as found, and leaves in the two scratch buffers what its stores wrote —
    the lists of stores found by running it. -/
noncomputable def runA (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    { LS : List (View.Piece (Elt F) S10000x16 .f32) × List (View.Piece (Elt F) S10000x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ (arg10.view.loc (c : Thread nD τ) ↦[arg10.view.set]{fullShare} arg10.view.writes (Elt F) (harg10.unread xs0) LS.1) ∗ (arg11.view.loc (c : Thread nD τ) ↦[arg11.view.set]{fullShare} arg11.view.writes (Elt F) (harg11.unread xs1) LS.2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexact HS0
    iexact HS1

end Cert.Kernel.Hand
end
-- ==== Proof.BodyK.RunB.lean ====
import proofs.«114416_g2834678415609_cont_sun_c4_672_25_alg».proof.Proof.BodyK.RunA
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

set_option maxHeartbeats 1000000 in
/-- The body at a point 1 … 24 (the second block only): it runs, hands everything back as found but the second scratch
    buffer, which holds what its one store wrote over what was there. -/
noncomputable def runB (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    { LS : List (View.Piece (Elt F) S10000x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ (arg11.view.loc (c : Thread nD τ) ↦[arg11.view.set]{fullShare} arg11.view.writes (Elt F) (harg11.unread xs1) LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexact HS1

end Cert.Kernel.Hand
end
-- ==== Proof.BodyK.RunC.lean ====
import proofs.«114416_g2834678415609_cont_sun_c4_672_25_alg».proof.Proof.BodyK.RunB
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

set_option maxHeartbeats 1000000 in
/-- The body at a point 25 … 49 (the third block only): it runs, hands everything back as found but the output buffer,
    which holds what its one store wrote over what was there. -/
noncomputable def runC (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : ¬condB i) (hc2 : condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    { LS : List (View.Piece (Elt F) S10000x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (arg9.view.loc (c : Thread nD τ) ↦[arg9.view.set]{fullShare} arg9.view.writes (Elt F) (harg9.unread y9) LS) ∗ owns (c : Thread nD τ) arg10 fullShare xs0 ∗ owns (c : Thread nD τ) arg11 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexact H8
    isplitl [HS0]
    · iexists _; isplitr; · ipureintro; exact harg10.read_unread _
      iexact HS0
    iexists _; isplitr; · ipureintro; exact harg11.read_unread _
    iexact HS1

end Cert.Kernel.Hand
end
-- ==== Proof.BodyK.Pieces.lean ====
import proofs.«114416_g2834678415609_cont_sun_c4_672_25_alg».proof.Proof.BodyK.RunC
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

/-! ## What the stores of each branch leave

A store of 400 whole rows starting at row `o` into a buffer of 10000 rows: a row in `[o, o + 400)` reads the stored
value at its position in the block, every other row reads what was there. -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store of whole rows `[o, o + 400)` over contents `d`, read inside the rows. -/
theorem read_rows_mem {a : Memref sig .tc .vmem S10000x7 .f32} (ha : a.IsWhole) (d : Vec F S10000x7 .f32)
    {off : Fin 2 → ℕ} (inb : ∀ k : Fin 2, off k + S400x7.size k ≤ S10000x7.size k)
    (w : (Rect.unit (s := S10000x7) off S400x7.size inb).shape.Idx → Elt F .f32) (o : ℕ) (hoff : off = ![o, 0])
    (y : S10000x7.Idx) (x : (Rect.unit (s := S10000x7) off S400x7.size inb).shape.Idx)
    (h0 : (y 0).val = o + (x 0).val) (h1 : (y 1).val = (x 1).val) :
    a.view.read (Elt F) (a.view.writes (Elt F) (ha.unread d) [⟨Rect.unit (s := S10000x7) off S400x7.size inb, w⟩]) y = w x :=
  View.read_writes_cons_rows_of_mem a.view (ha.unread d) inb w [] y x hoff h0 h1

/-- The same, read outside the rows. -/
theorem read_rows_not_mem {a : Memref sig .tc .vmem S10000x7 .f32} (ha : a.IsWhole) (d : Vec F S10000x7 .f32)
    {off : Fin 2 → ℕ} (inb : ∀ k : Fin 2, off k + S400x7.size k ≤ S10000x7.size k)
    (w : (Rect.unit (s := S10000x7) off S400x7.size inb).shape.Idx → Elt F .f32) (o : ℕ) (hoff : off = ![o, 0])
    (y : S10000x7.Idx) (h : (y 0).val < o ∨ o + 400 ≤ (y 0).val) :
    a.view.read (Elt F) (a.view.writes (Elt F) (ha.unread d) [⟨Rect.unit (s := S10000x7) off S400x7.size inb, w⟩]) y = d y := by
  rw [View.read_writes_cons_rows_of_not_mem a.view (ha.unread d) inb w [] y hoff rfl h, View.writes_nil]
  exact congrFun (ha.read_unread d) y

/-- Points 1 … 24: the one store is the block's rows of the first-layer output, computed from the adjacency block, the
    features' product and the first layer's bias and second weight matrix. -/
theorem runB_val (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1 y9).1
      = [⟨Rect.unit (s := S10000x7) (k0_off1 i) S400x7.size (k0_off1_inb i hc1), k0_pay2 x0 xs0 x3 x4⟩] := by
  unfold runB
  dsimp only
  simp only [View.readAt_eq_ld, harg1.read_unread, harg10.read_unread, harg4.read_unread, harg5.read_unread,
    View.ld_unit_zero (S := S1x400x10000) hz3, View.ld_unit_zero (S := S10000x16) hz2, View.ld_unit_zero (S := S1x16) hz2,
    View.ld_unit_zero (S := S16x7) hz2]

/-- Points 25 … 49: the one store is the block's rows of the result. -/
theorem runC_val (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : ¬condB i) (hc2 : condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1 y9).1
      = [⟨Rect.unit (s := S10000x7) (k0_off2 i) S400x7.size (k0_off2_inb i hc2), k0_pay3 x0 xs1 x5 x6 x7⟩] := by
  unfold runC
  dsimp only
  simp only [View.readAt_eq_ld, harg1.read_unread, harg11.read_unread, harg6.read_unread, harg7.read_unread, harg8.read_unread,
    View.ld_unit_zero (S := S1x400x10000) hz3, View.ld_unit_zero (S := S10000x7) hz2, View.ld_unit_zero (S := S1x7) hz2,
    View.ld_unit_zero (S := S7x7) hz2]

/-- One store of the whole shape reads back as the stored value, whatever was there. -/
theorem read_whole_store {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  exact View.read_writes_whole v f w

/-- Point 0: the first store is the features times the first weight matrix, over the whole first scratch buffer; the
    second is block 0 of the first-layer output, computed from that product read back. -/
theorem runA_val (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1 y9).1
      = ([⟨Rect.unit (s := S10000x16) ![0, 0] S10000x16.size inb_S10000x16_S10000x16_0_0, k0_pay1 x1 x2⟩],
         [⟨Rect.unit (s := S10000x7) (k0_off1 i) S400x7.size (k0_off1_inb i hc1), k0_pay2 x0 (k0_pay1 x1 x2) x3 x4⟩]) := by
  unfold runA
  dsimp only
  sl_unfold_words
  simp only [View.readCov_unit_zero (S := S10000x16) _ hz2, View.readAt_eq_ld, harg1.read_unread, harg2.read_unread, harg3.read_unread,
    harg4.read_unread, harg5.read_unread,
    View.ld_unit_zero (S := S1x400x10000) hz3, View.ld_unit_zero (S := S10000x128) hz2, View.ld_unit_zero (S := S128x16) hz2,
    View.ld_unit_zero (S := S1x16) hz2, View.ld_unit_zero (S := S16x7) hz2]

end Cert.Kernel.Hand
end
-- ==== Proof.BodyK.Data.lean ====
import proofs.«114416_g2834678415609_cont_sun_c4_672_25_alg».proof.Proof.BodyK.Base
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-! ## What the kernel computes, block by block

`s1v` is the features times the first weight matrix, computed once at point 0. `s2blk t` is the 400 rows of the first
layer's output that point `t < 25` computes from its row block of the first adjacency matrix; `S2` collects the 25
blocks into the whole first-layer output. `outblk t` is the 400 rows of the result that point `t ≥ 25` computes from
its row block of the second adjacency matrix and the whole `S2`; `OUT` collects them. -/

/-- Point `n` of the grid. -/
def pt (n : ℕ) (h : n < 50) : Fin cfg0.N := ⟨n, lt_of_lt_of_eq h N_eq.symm⟩

@[simp] theorem pt_val (n : ℕ) (h : n < 50) : (pt n h).val = n := rfl

theorem pt_eq (t : Fin cfg0.N) (h : t.val < 50) : pt t.val h = t := Fin.ext rfl

/-- The features times the first weight matrix (what point 0 stores in the first scratch buffer). -/
def s1v (c : Dev nD) : Vec F S10000x16 .f32 := k0_pay1 (iblk m c 1 (pt 0 (by omega))) (iblk m c 2 (pt 0 (by omega)))

/-- The rows of the first layer's output that point `t` computes. -/
def s2blk (c : Dev nD) (t : Fin cfg0.N) : FVec F S400x7 .f32 := k0_pay2 (iblk m c 0 t) (s1v m c) (iblk m c 3 t) (iblk m c 4 t)

/-- The row block a row belongs to. -/
def rowBlk (y : S10000x7.Idx) : ℕ := (y 0).val / 400

theorem rowBlk_lt (y : S10000x7.Idx) : rowBlk y < 25 := by
  have := ValueIdx.idx2_lt0 y; unfold rowBlk; omega

/-- A row's position inside its block, with the column. -/
def rowLoc (y : S10000x7.Idx) : S400x7.Idx := ValueIdx.ix2 ⟨(y 0).val % 400, Nat.mod_lt _ (by omega)⟩ (y 1)

/-- The whole first-layer output: block `r / 400` at row `r % 400`. -/
def S2 (c : Dev nD) : Vec F S10000x7 .f32 := fun y => s2blk m c (pt (rowBlk y) (by have := rowBlk_lt y; omega)) (rowLoc y)

/-- The rows of the result that point `t` computes. -/
def outblk (c : Dev nD) (t : Fin cfg0.N) : FVec F S400x7 .f32 := k0_pay3 (iblk m c 0 t) (S2 m c) (iblk m c 5 t) (iblk m c 6 t) (iblk m c 7 t)

/-- The whole result: block `r / 400`, computed at point `25 + r / 400`, at row `r % 400`. -/
def OUT (c : Dev nD) : Vec F S10000x7 .f32 := fun y => outblk m c (pt (rowBlk y + 25) (by have := rowBlk_lt y; omega)) (rowLoc y)

/-- After `n` points the second scratch buffer holds the first `n` blocks of the first-layer output. -/
def S2ok (c : Dev nD) (n : ℕ) (d : Vec F S10000x7 .f32) : Prop := ∀ y : S10000x7.Idx, (y 0).val < 400 * n → d y = S2 m c y

/-- What a point does to the output's buffer: nothing before point 25; from then on its block of rows becomes the
    result's, the other rows stay. -/
def OUTrel (c : Dev nD) (t : Fin cfg0.N) (Y X : Vec F S10000x7 .f32) : Prop :=
  (t.val < 25 → X = Y) ∧
  (25 ≤ t.val → (∀ y : S10000x7.Idx, rowBlk y + 25 = t.val → X y = OUT m c y) ∧ (∀ y : S10000x7.Idx, rowBlk y + 25 ≠ t.val → X y = Y y))

/-- The invariant between points: before the first, whatever the launch hands over; afterwards the first scratch
    buffer at the features' product, the second with the blocks computed so far, the generator at some state. -/
def Phi (c : Dev nD) : ℕ → sProp 𝕄
  | 0 => Pipeline.ΦA spec0 c
  | n + 1 => iprop(iprop(owns (c : Thread nD τ) scA fullShare (s1v m c) ∗ (∃ d, ⌜S2ok m c (n + 1) d⌝ ∗ owns (c : Thread nD τ) scB fullShare d)) ∗ (∃ r, prngReg c r))

theorem Phi_pos (c : Dev nD) (n : ℕ) (hn : n ≠ 0) :
    Phi m c n = iprop(iprop(owns (c : Thread nD τ) scA fullShare (s1v m c) ∗ (∃ d, ⌜S2ok m c n d⌝ ∗ owns (c : Thread nD τ) scB fullShare d)) ∗ (∃ r, prngReg c r)) := by
  cases n with
  | zero => exact absurd rfl hn
  | succ n => rfl

/-- The proof data of the pipeline on core `c`: the arrays as the region finds them; every input's buffer left as
    found; the output's buffer changed as `OUTrel` says; the invariant `Phi`; whole shares; nothing owed. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => OUTrel m c t Y X
  Φ t := Phi m c t.val
  q _ := fullShare
  owed _ := 0

theorem rdat_A (c : Dev nD) (w : Fin cfg0.W) : (rdat m c).A w = V m c (Pipeline.arrRef spec0 w) := rfl

/-- An input's buffer holds its block wherever the body is handed it: fetched there, or left in place since. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold RDat.fetched RDat.blockOf iblk; rfl)
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold RDat.fetched RDat.blockOf iblk; rfl)
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold RDat.fetched RDat.blockOf iblk; rfl)
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold RDat.fetched RDat.blockOf iblk; rfl)
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold RDat.fetched RDat.blockOf iblk; rfl)
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold RDat.fetched RDat.blockOf iblk; rfl)
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  exact hd.trans (by unfold RDat.fetched RDat.blockOf iblk; rfl)
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  exact hd.trans (by unfold RDat.fetched RDat.blockOf iblk; rfl)

end Cert.Kernel.Hand
end
-- ==== Proof.BodyK.Steps.lean ====
import proofs.«114416_g2834678415609_cont_sun_c4_672_25_alg».proof.Proof.BodyK.Pieces
import proofs.«114416_g2834678415609_cont_sun_c4_672_25_alg».proof.Proof.BodyK.Data
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-! ## One point's effect on the carried buffers -/

theorem rowLoc0 (y : S10000x7.Idx) : ((rowLoc y) 0).val = (y 0).val % 400 := rfl
theorem rowLoc1 (y : S10000x7.Idx) : ((rowLoc y) 1).val = (y 1).val := rfl

/-- Every row of the first-layer output once 25 blocks are in place. -/
theorem S2ok_all (c : Dev nD) (n : ℕ) (hn : 25 ≤ n) (d : Vec F S10000x7 .f32) (hd : S2ok m c n d) : d = S2 m c :=
  funext fun y => hd y (by have := ValueIdx.idx2_lt0 y; omega)

theorem S2ok_mono (c : Dev nD) (n k : ℕ) (hn : 25 ≤ n) (d : Vec F S10000x7 .f32) (hd : S2ok m c n d) : S2ok m c k d :=
  fun y _ => hd y (by have := ValueIdx.idx2_lt0 y; omega)

/-- A point below 25 adds its block of rows to the first-layer output held in the second scratch buffer. -/
theorem S2ok_stepB (c : Dev nD) (t : Fin cfg0.N) (h1 : t.val < 25)
    (hA : ¬condA (grid0.coords t)) (hB : condB (grid0.coords t)) (hC : ¬condC (grid0.coords t))
    (d y9 : Vec F S10000x7 .f32) (hd : S2ok m c t.val d) :
    S2ok m c (t.val + 1) (scB.view.read (Elt F) (scB.view.writes (Elt F) ((Memref.isWhole_whole cc0_scratch1).unread d)
      (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) d y9).1)) := by
  rw [runB_val]
  intro y hy
  by_cases hb : rowBlk y = t.val
  · have e : pt (rowBlk y) (by have := rowBlk_lt y; omega) = t := Fin.ext hb
    refine (read_rows_mem (F := F) (Memref.isWhole_whole cc0_scratch1) d (k0_off1_inb (grid0.coords t) hB)
      (k0_pay2 (iblk m c 0 t) (s1v m c) (iblk m c 3 t) (iblk m c 4 t)) (400 * (t.val % 25)) (off1_eq t) y (rowLoc y) ?_ (rowLoc1 y).symm).trans ?_
    · rw [rowLoc0]; unfold rowBlk at hb; omega
    · exact (congrArg (fun z => s2blk m c z (rowLoc y)) e).symm
  · refine (read_rows_not_mem (F := F) (Memref.isWhole_whole cc0_scratch1) d (k0_off1_inb (grid0.coords t) hB)
      (k0_pay2 (iblk m c 0 t) (s1v m c) (iblk m c 3 t) (iblk m c 4 t)) (400 * (t.val % 25)) (off1_eq t) y ?_).trans (hd y ?_)
    · unfold rowBlk at hb; omega
    · unfold rowBlk at hb; omega

/-- A point from 25 on replaces its block of rows of the output's buffer by the result's, given the whole first-layer
    output in the second scratch buffer. -/
theorem OUTrel_stepC (c : Dev nD) (t : Fin cfg0.N) (h1 : 25 ≤ t.val)
    (hA : ¬condA (grid0.coords t)) (hB : ¬condB (grid0.coords t)) (hC : condC (grid0.coords t))
    (y9 : Vec F S10000x7 .f32) :
    OUTrel m c t y9 ((ms8 t).view.read (Elt F) ((ms8 t).view.writes (Elt F) ((hs8 t).unread y9)
      (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) (S2 m c) y9).1)) := by
  have hN : t.val < 50 := lt_of_lt_of_eq t.isLt N_eq
  rw [runC_val]
  refine ⟨fun h => absurd h (by omega), fun _ => ⟨fun y hb => ?_, fun y hb => ?_⟩⟩
  · have e : pt (rowBlk y + 25) (by have := rowBlk_lt y; omega) = t := Fin.ext hb
    refine (read_rows_mem (F := F) (hs8 t) y9 (k0_off2_inb (grid0.coords t) hC)
      (k0_pay3 (iblk m c 0 t) (S2 m c) (iblk m c 5 t) (iblk m c 6 t) (iblk m c 7 t)) (400 * (t.val % 25)) (off2_eq t) y (rowLoc y) ?_ (rowLoc1 y).symm).trans ?_
    · rw [rowLoc0]; unfold rowBlk at hb; omega
    · exact (congrArg (fun z => outblk m c z (rowLoc y)) e).symm
  · refine read_rows_not_mem (F := F) (hs8 t) y9 (k0_off2_inb (grid0.coords t) hC)
      (k0_pay3 (iblk m c 0 t) (S2 m c) (iblk m c 5 t) (iblk m c 6 t) (iblk m c 7 t)) (400 * (t.val % 25)) (off2_eq t) y ?_
    unfold rowBlk at hb; omega

/-- Point 0 leaves the features' product in the first scratch buffer. -/
theorem s1v_stepA (c : Dev nD) (t : Fin cfg0.N) (hz : t.val = 0)
    (hA : condA (grid0.coords t)) (hB : condB (grid0.coords t)) (hC : ¬condC (grid0.coords t))
    (ds0 : Vec F S10000x16 .f32) (ds1 y9 : Vec F S10000x7 .f32) :
    scA.view.read (Elt F) (scA.view.writes (Elt F) ((Memref.isWhole_whole cc0_scratch0).unread ds0)
      (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) ds0 ds1 y9).1.1) = s1v m c := by
  rw [runA_val]
  dsimp only
  have e : t = pt 0 (by omega) := Fin.ext hz
  rw [read_whole_store scA.view _ hz2]
  exact congrArg (fun z => k0_pay1 (iblk m c 1 z) (iblk m c 2 z)) e

/-- Point 0 puts block 0 of the first-layer output in the second scratch buffer. -/
theorem S2ok_stepA (c : Dev nD) (t : Fin cfg0.N) (hz : t.val = 0)
    (hA : condA (grid0.coords t)) (hB : condB (grid0.coords t)) (hC : ¬condC (grid0.coords t))
    (ds0 : Vec F S10000x16 .f32) (ds1 y9 : Vec F S10000x7 .f32) :
    S2ok m c (t.val + 1) (scB.view.read (Elt F) (scB.view.writes (Elt F) ((Memref.isWhole_whole cc0_scratch1).unread ds1)
      (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) ds0 ds1 y9).1.2)) := by
  rw [runA_val]
  dsimp only
  have e0 : t = pt 0 (by omega) := Fin.ext hz
  have es : k0_pay1 (iblk m c 1 t) (iblk m c 2 t) = s1v m c := congrArg (fun z => k0_pay1 (iblk m c 1 z) (iblk m c 2 z)) e0
  rw [es]
  intro y hy
  have hb : rowBlk y = t.val := by unfold rowBlk; omega
  have e : pt (rowBlk y) (by have := rowBlk_lt y; omega) = t := Fin.ext hb
  refine (read_rows_mem (F := F) (Memref.isWhole_whole cc0_scratch1) ds1 (k0_off1_inb (grid0.coords t) hB)
    (k0_pay2 (iblk m c 0 t) (s1v m c) (iblk m c 3 t) (iblk m c 4 t)) (400 * (t.val % 25)) (off1_eq t) y (rowLoc y) ?_ (rowLoc1 y).symm).trans ?_
  · rw [rowLoc0]; unfold rowBlk at hb; omega
  · exact (congrArg (fun z => s2blk m c z (rowLoc y)) e).symm

end Cert.Kernel.Hand
end
-- ==== Proof.BodyK.Oblig.lean ====
import proofs.«114416_g2834678415609_cont_sun_c4_672_25_alg».proof.Proof.BodyK.Steps
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ)

/-! ## The body obligation

At every point the body, handed the invariant and the windows' buffers at contents they may hold, runs to the invariant
at the next point and hands the buffers back in the stated relation: the inputs as found, the output's buffer with the
point's block of rows replaced (from point 25 on). The point's case is read off its number. -/

set_option maxHeartbeats 4000000 in
theorem sound_body (c : Dev nD) (t : Fin cfg0.N)
    (Y : (w : Fin cfg0.W) → (cfg0.win w).block.Idx → Elt F (cfg0.win w).elt) (hY : ∀ w, (rdat m c).Finds w t (Y w)) :
    iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8))
    ⊢ wp frame (wpE (defs₀ (F := F)) Variants.none c none) Set.univ (bodyAt0 t) (fun _ => iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X))) := by
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  rw [e0, e1, e2, e3, e4, e5, e6, e7]
  generalize Y 8 = y9
  unfold bodyAt0
  rw [show (rdat m c).owesAt () t.succ = (rdat m c).owesAt () t.castSucc from rfl]
  rw [show (rdat m c).Φ t.castSucc = Phi m c t.val from rfl, show (rdat m c).Φ t.succ = Phi m c (t.val + 1) from rfl]
  have hN : t.val < 50 := lt_of_lt_of_eq t.isLt N_eq
  rw [Phi_pos m c (t.val + 1) (Nat.succ_ne_zero _)]
  by_cases hz : t.val = 0
  · have hA : condA (grid0.coords t) := (condA_iff t).mpr hz
    have hB : condB (grid0.coords t) := (condB_iff t).mpr (by omega)
    have hC : ¬condC (grid0.coords t) := fun h => by have := (condC_iff t).mp h; omega
    rw [show Phi m c t.val = Pipeline.ΦA spec0 c from by rw [hz]; rfl, PhiA_eq]
    iintro ⟨⟨⟨⟨%ds0, HS0⟩, ⟨%ds1, HS1⟩⟩, Hg⟩, Ho, H0, H1, H2, H3, H4, H5, H6, H7, H8⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) ds0 ds1 y9).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · unfold owns; iexists _; isplitr; swap; · iexact HS0
          ipureintro; exact s1v_stepA m c t hz hA hB hC ds0 ds1 y9
        · iexists _; isplitr; swap
          · unfold owns; iexists _; isplitr; swap; · iexact HS1
            ipureintro; exact rfl
          ipureintro; exact S2ok_stepA m c t hz hA hB hC ds0 ds1 y9
      iexact Hg
    isplitl [Ho]; · iexact Ho
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    isplitl [H6]
    · iexists _; isplitr; swap; · iexact H6
      ipureintro; exact rfl
    isplitl [H7]
    · iexists _; isplitr; swap; · iexact H7
      ipureintro; exact rfl
    iexists _; isplitr; swap; · iexact H8
    ipureintro; exact ⟨fun _ => rfl, fun h => absurd h (by omega)⟩
  · rw [Phi_pos m c t.val hz]
    by_cases h1 : t.val < 25
    · have hA : ¬condA (grid0.coords t) := fun h => hz ((condA_iff t).mp h)
      have hB : condB (grid0.coords t) := (condB_iff t).mpr h1
      have hC : ¬condC (grid0.coords t) := fun h => by have := (condC_iff t).mp h; omega
      iintro ⟨⟨⟨HS0, ⟨%d, %hd, HS1⟩⟩, Hg⟩, Ho, H0, H1, H2, H3, H4, H5, H6, H7, H8⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) d y9).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          · iexists _; isplitr; swap
            · unfold owns; iexists _; isplitr; swap; · iexact HS1
              ipureintro; exact rfl
            ipureintro; exact S2ok_stepB m c t h1 hA hB hC d y9 hd
        iexact Hg
      isplitl [Ho]; · iexact Ho
      isplitl [H0]
      · iexists _; isplitr; swap; · iexact H0
        ipureintro; exact rfl
      isplitl [H1]
      · iexists _; isplitr; swap; · iexact H1
        ipureintro; exact rfl
      isplitl [H2]
      · iexists _; isplitr; swap; · iexact H2
        ipureintro; exact rfl
      isplitl [H3]
      · iexists _; isplitr; swap; · iexact H3
        ipureintro; exact rfl
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      iexists _; isplitr; swap; · iexact H8
      ipureintro; exact ⟨fun _ => rfl, fun h => absurd h (by omega)⟩
    · have hA : ¬condA (grid0.coords t) := fun h => hz ((condA_iff t).mp h)
      have hB : ¬condB (grid0.coords t) := fun h => h1 ((condB_iff t).mp h)
      have hC : condC (grid0.coords t) := (condC_iff t).mpr (by omega)
      iintro ⟨⟨⟨HS0, ⟨%d, %hd, HS1⟩⟩, Hg⟩, Ho, H0, H1, H2, H3, H4, H5, H6, H7, H8⟩
      obtain rfl := S2ok_all m c t.val (by omega) d hd
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) (S2 m c) y9).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          · iexists _; isplitr; swap; · iexact HS1
            ipureintro; exact S2ok_mono m c t.val (t.val + 1) (by omega) _ hd
        iexact Hg
      isplitl [Ho]; · iexact Ho
      isplitl [H0]
      · iexists _; isplitr; swap; · iexact H0
        ipureintro; exact rfl
      isplitl [H1]
      · iexists _; isplitr; swap; · iexact H1
        ipureintro; exact rfl
      isplitl [H2]
      · iexists _; isplitr; swap; · iexact H2
        ipureintro; exact rfl
      isplitl [H3]
      · iexists _; isplitr; swap; · iexact H3
        ipureintro; exact rfl
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      iexists _; isplitr; swap
      · unfold owns; iexists _; isplitr; swap; · iexact H8
        ipureintro; exact rfl
      ipureintro; exact OUTrel_stepC m c t (by omega) hA hB hC y9

/-- The body obligation of the relational proof data, at every point. -/
theorem body_obligation (c : Dev nD) : (rdat m c).BodyObligation (defs₀ (F := F)) Variants.none () Set.univ := fun t Y hY => by
  rw [bigSep_W0, bigSep_W0]
  exact sound_body m c t Y hY

/-- What the launch hands the region is the invariant before the first point. -/
theorem hin (c : Dev nD) : Pipeline.ΦA spec0 c ⊢ (rdat m c).Φ 0 := Idealize.SL.BI.Entails.refl _

/-- After the last point the invariant gives the launch's back: the scratch buffers' contents are forgotten. -/
theorem hout (c : Dev nD) : (rdat m c).Φ (Fin.last cfg0.N) ⊢ Pipeline.ΦA spec0 c := by
  rw [show (rdat m c).Φ (Fin.last cfg0.N) = Phi m c 50 from rfl, Phi_pos m c 50 (by omega), PhiA_eq]
  iintro ⟨⟨HS0, ⟨%d, %hd, HS1⟩⟩, Hg⟩
  isplitl [HS0 HS1]
  · isplitl [HS0]
    · iexists _; iexact HS0
    iexists _; iexact HS1
  iexact Hg

end Cert.Kernel.Hand
end
-- ==== Proof.BodyK.Frame.lean ====
import proofs.«114416_g2834678415609_cont_sun_c4_672_25_alg».proof.Proof.BodyK.Oblig
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.Kernel Cert.Kernel.Gen

variable (m : (ℓ : Loc nD τ sig) → Buf (Elt F) ℓ) (ρ : Dev nD → PrngReg)

/-! ## The run and the frame -/

set_option backward.isDefEq.respectTransparency.types false in
/-- From any memory with zero counters every weakly fair execution of @main terminates, and at the end every array of
    the pipeline holds contents it may hold after every write-back — an input its entry contents, the output what the
    relation `OUTrel` allows —, every other unscoped buffer its entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => rdat_A m c w) (hin := hin m) (hout := hout m)

/-- The frame: every argument array ends as launched. A staged argument is an input window's array, never written;
    the three biases reach the region reshaped and their own arrays bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Eq.mp (congrFun ((rdat m c).ArrAt_in 1 rfl _) _) ((h c).1 1)).trans ((rdat_A m c 1).trans (V_main_arg0 m c)),
      (Eq.mp (congrFun ((rdat m c).ArrAt_in 0 rfl _) _) ((h c).1 0)).trans ((rdat_A m c 0).trans (V_main_arg1 m c)),
      (Eq.mp (congrFun ((rdat m c).ArrAt_in 2 rfl _) _) ((h c).1 2)).trans ((rdat_A m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c)),
      ((h c).2 main_arg5 (Pipeline.mem_restRefs_of main_arg5 (by decide) (by decide))).trans (V_main_arg5 m c),
      (Eq.mp (congrFun ((rdat m c).ArrAt_in 6 rfl _) _) ((h c).1 6)).trans ((rdat_A m c 6).trans (V_main_arg6 m c)),
      ((h c).2 main_arg7 (Pipeline.mem_restRefs_of main_arg7 (by decide) (by decide))).trans (V_main_arg7 m c)⟩) (run_main m ρ)

end Cert.Kernel.Hand
end
-- ==== Proof.Body.Base.lean ====
import proofs.«114416_g2834678415609_cont_sun_c4_672_25_alg».proof.Proof.Gen.KernelIdeal.Frame
import proofs.«114416_g2834678415609_cont_sun_c4_672_25_alg».proof.Proof.Gen.KernelIdeal.Skeleton
import proofs.«114416_g2834678415609_cont_sun_c4_672_25_alg».proof.Proof.Gen.KernelIdeal.Points
import proofs.«114416_g2834678415609_cont_sun_c4_672_25_alg».proof.Proof.Gen.KernelIdeal.Launch
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

/-! ## The three branches of the body, decided over the grid

The body runs three guarded blocks: the first at point 0 only, the second at the points below 25, the third at the
points from 25 on. Points 0 … 24 walk the row blocks of the first adjacency matrix, points 25 … 49 those of the second;
the row block of point `t` starts at row `400 * (t % 25)`. -/

/-- The guard of the first block: the grid coordinate is 0. -/
abbrev condA (i : grid0.Coords) : Prop := (Scalar.cmpi .ne (Scalar.extui (Scalar.cmpi .eq (BitVec.ofNat 32 (i 0).val) 0#32)) 0#32) = 1#1
/-- The guard of the second block: the grid coordinate is below 25. -/
abbrev condB (i : grid0.Coords) : Prop := k0_cond2 i = 1#1
/-- The guard of the third block: the grid coordinate is at least 25. -/
abbrev condC (i : grid0.Coords) : Prop := k0_cond3 i = 1#1

theorem condA_iff : ∀ t : Fin cfg0.N, condA (grid0.coords t) ↔ t.val = 0 :=
  (by decide +kernel : ∀ t : Fin grid0.N, condA (grid0.coords t) ↔ t.val = 0)
theorem condB_iff : ∀ t : Fin cfg0.N, condB (grid0.coords t) ↔ t.val < 25 :=
  (by decide +kernel : ∀ t : Fin grid0.N, condB (grid0.coords t) ↔ t.val < 25)
theorem condC_iff : ∀ t : Fin cfg0.N, condC (grid0.coords t) ↔ 25 ≤ t.val :=
  (by decide +kernel : ∀ t : Fin grid0.N, condC (grid0.coords t) ↔ 25 ≤ t.val)

/-- The rows the second block stores into: they start at `400 * (t % 25)`, in column 0. -/
theorem off1_eq (t : Fin cfg0.N) : k0_off1 (grid0.coords t) = ![400 * (t.val % 25), 0] := by
  have h : ∀ t : Fin cfg0.N, k0_off1 (grid0.coords t) 0 = 400 * (t.val % 25) ∧ k0_off1 (grid0.coords t) 1 = 0 :=
    (by decide +kernel : ∀ t : Fin grid0.N, k0_off1 (grid0.coords t) 0 = 400 * (t.val % 25) ∧ k0_off1 (grid0.coords t) 1 = 0)
  funext a; match a with | ⟨0, _⟩ => exact (h t).1 | ⟨1, _⟩ => exact (h t).2
/-- The rows the third block stores into: they start at `400 * (t % 25)`, in column 0. -/
theorem off2_eq (t : Fin cfg0.N) : k0_off2 (grid0.coords t) = ![400 * (t.val % 25), 0] := by
  have h : ∀ t : Fin cfg0.N, k0_off2 (grid0.coords t) 0 = 400 * (t.val % 25) ∧ k0_off2 (grid0.coords t) 1 = 0 :=
    (by decide +kernel : ∀ t : Fin grid0.N, k0_off2 (grid0.coords t) 0 = 400 * (t.val % 25) ∧ k0_off2 (grid0.coords t) 1 = 0)
  funext a; match a with | ⟨0, _⟩ => exact (h t).1 | ⟨1, _⟩ => exact (h t).2

theorem N_eq : cfg0.N = 50 := N_0

/-! ## The buffers the body is called on -/

abbrev ms0 (t : Fin cfg0.N) : Memref sig .tc .vmem S1x400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S16x7 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x7 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S7x7 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x7 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S10000x7 .f32 := win0_8.stage (cfg0.slots t 8)
abbrev hs8 (t : Fin cfg0.N) : (ms8 t).IsWhole := hstage0_8 ((cfg0.slots t 8).cast nbuf0_8)
/-- The two scratch buffers: the product of the features with the first weight matrix, and the first layer's output. -/
abbrev scA : Memref sig .tc .vmem S10000x16 .f32 := Memref.whole cc0_scratch0
abbrev scB : Memref sig .tc .vmem S10000x7 .f32 := Memref.whole cc0_scratch1

/-- What the launch hands the region besides the windows: the two scratch buffers at some contents and the
    generator register at some state. -/
theorem PhiA_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

end Cert.KernelIdeal.Hand
end
-- ==== Proof.Body.RunA.lean ====
import proofs.«114416_g2834678415609_cont_sun_c4_672_25_alg».proof.Proof.Body.Base
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

set_option maxHeartbeats 1000000 in
/-- The body at point 0 (all of the first two blocks, none of the third), on whole buffers at given contents: it runs,
    hands the inputs and the output buffer back as found, and leaves in the two scratch buffers what its stores wrote —
    the lists of stores found by running it. -/
noncomputable def runA (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    { LS : List (View.Piece (Elt F) S10000x16 .f32) × List (View.Piece (Elt F) S10000x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ (arg10.view.loc (c : Thread nD τ) ↦[arg10.view.set]{fullShare} arg10.view.writes (Elt F) (harg10.unread xs0) LS.1) ∗ (arg11.view.loc (c : Thread nD τ) ↦[arg11.view.set]{fullShare} arg11.view.writes (Elt F) (harg11.unread xs1) LS.2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨⟨?_, ?_⟩, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]; · iexact HS0
    iexact HS1

end Cert.KernelIdeal.Hand
end
-- ==== Proof.Body.RunB.lean ====
import proofs.«114416_g2834678415609_cont_sun_c4_672_25_alg».proof.Proof.Body.RunA
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

set_option maxHeartbeats 1000000 in
/-- The body at a point 1 … 24 (the second block only): it runs, hands everything back as found but the second scratch
    buffer, which holds what its one store wrote over what was there. -/
noncomputable def runB (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    { LS : List (View.Piece (Elt F) S10000x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ (arg11.view.loc (c : Thread nD τ) ↦[arg11.view.set]{fullShare} arg11.view.writes (Elt F) (harg11.unread xs1) LS)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HS0]
    · iexists _; isplitr; · ipureintro; exact harg10.read_unread _
      iexact HS0
    iexact HS1

end Cert.KernelIdeal.Hand
end
-- ==== Proof.Body.RunC.lean ====
import proofs.«114416_g2834678415609_cont_sun_c4_672_25_alg».proof.Proof.Body.RunB
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

set_option maxHeartbeats 1000000 in
/-- The body at a point 25 … 49 (the third block only): it runs, hands everything back as found but the output buffer,
    which holds what its one store wrote over what was there. -/
noncomputable def runC (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : ¬condB i) (hc2 : condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    { LS : List (View.Piece (Elt F) S10000x7 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y9 ∗ owns (c : Thread nD τ) arg10 fullShare xs0 ∗ owns (c : Thread nD τ) arg11 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (arg9.view.loc (c : Thread nD τ) ↦[arg9.view.set]{fullShare} arg9.view.writes (Elt F) (harg9.unread y9) LS) ∗ owns (c : Thread nD τ) arg10 fullShare xs0 ∗ owns (c : Thread nD τ) arg11 fullShare xs1) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hfs0; obtain rfl := harg11.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexact H8
    isplitl [HS0]
    · iexists _; isplitr; · ipureintro; exact harg10.read_unread _
      iexact HS0
    iexists _; isplitr; · ipureintro; exact harg11.read_unread _
    iexact HS1

end Cert.KernelIdeal.Hand
end
-- ==== Proof.Body.Pieces.lean ====
import proofs.«114416_g2834678415609_cont_sun_c4_672_25_alg».proof.Proof.Body.RunC
import Idealize.ShloMosaic.Lib.Pipeline.FrameBody
import Idealize.ShloMosaic.Lib.Ring
import Idealize.ShloMosaic.Lib.Tactic
import Idealize.ShloMosaic.Lib.WritesUnit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

/-! ## What the stores of each branch leave

A store of 400 whole rows starting at row `o` into a buffer of 10000 rows: a row in `[o, o + 400)` reads the stored
value at its position in the block, every other row reads what was there. -/

theorem hz2 : (![0, 0] : Fin 2 → Nat) = fun _ => 0 := funext fun a => by fin_cases a <;> rfl
theorem hz3 : (![0, 0, 0] : Fin 3 → Nat) = fun _ => 0 := funext fun a => by fin_cases a <;> rfl

/-- One store of whole rows `[o, o + 400)` over contents `d`, read inside the rows. -/
theorem read_rows_mem {a : Memref sig .tc .vmem S10000x7 .f32} (ha : a.IsWhole) (d : Vec F S10000x7 .f32)
    {off : Fin 2 → ℕ} (inb : ∀ k : Fin 2, off k + S400x7.size k ≤ S10000x7.size k)
    (w : (Rect.unit (s := S10000x7) off S400x7.size inb).shape.Idx → Elt F .f32) (o : ℕ) (hoff : off = ![o, 0])
    (y : S10000x7.Idx) (x : (Rect.unit (s := S10000x7) off S400x7.size inb).shape.Idx)
    (h0 : (y 0).val = o + (x 0).val) (h1 : (y 1).val = (x 1).val) :
    a.view.read (Elt F) (a.view.writes (Elt F) (ha.unread d) [⟨Rect.unit (s := S10000x7) off S400x7.size inb, w⟩]) y = w x :=
  View.read_writes_cons_rows_of_mem a.view (ha.unread d) inb w [] y x hoff h0 h1

/-- The same, read outside the rows. -/
theorem read_rows_not_mem {a : Memref sig .tc .vmem S10000x7 .f32} (ha : a.IsWhole) (d : Vec F S10000x7 .f32)
    {off : Fin 2 → ℕ} (inb : ∀ k : Fin 2, off k + S400x7.size k ≤ S10000x7.size k)
    (w : (Rect.unit (s := S10000x7) off S400x7.size inb).shape.Idx → Elt F .f32) (o : ℕ) (hoff : off = ![o, 0])
    (y : S10000x7.Idx) (h : (y 0).val < o ∨ o + 400 ≤ (y 0).val) :
    a.view.read (Elt F) (a.view.writes (Elt F) (ha.unread d) [⟨Rect.unit (s := S10000x7) off S400x7.size inb, w⟩]) y = d y := by
  rw [View.read_writes_cons_rows_of_not_mem a.view (ha.unread d) inb w [] y hoff rfl h, View.writes_nil]
  exact congrFun (ha.read_unread d) y

/-- Points 1 … 24: the one store is the block's rows of the first-layer output, computed from the adjacency block, the
    features' product and the first layer's bias and second weight matrix. -/
theorem runB_val (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    (runB c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1 y9).1
      = [⟨Rect.unit (s := S10000x7) (k0_off1 i) S400x7.size (k0_off1_inb i hc1), k0_pay2 x0 xs0 x3 x4⟩] := by
  unfold runB
  dsimp only
  simp only [View.readAt_eq_ld, harg1.read_unread, harg10.read_unread, harg4.read_unread, harg5.read_unread,
    View.ld_unit_zero (S := S1x400x10000) hz3, View.ld_unit_zero (S := S10000x16) hz2, View.ld_unit_zero (S := S1x16) hz2,
    View.ld_unit_zero (S := S16x7) hz2]

/-- Points 25 … 49: the one store is the block's rows of the result. -/
theorem runC_val (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : ¬condA i) (hc1 : ¬condB i) (hc2 : condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    (runC c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1 y9).1
      = [⟨Rect.unit (s := S10000x7) (k0_off2 i) S400x7.size (k0_off2_inb i hc2), k0_pay3 x0 xs1 x5 x6 x7⟩] := by
  unfold runC
  dsimp only
  simp only [View.readAt_eq_ld, harg1.read_unread, harg11.read_unread, harg6.read_unread, harg7.read_unread, harg8.read_unread,
    View.ld_unit_zero (S := S1x400x10000) hz3, View.ld_unit_zero (S := S10000x7) hz2, View.ld_unit_zero (S := S1x7) hz2,
    View.ld_unit_zero (S := S7x7) hz2]

/-- One store of the whole shape reads back as the stored value, whatever was there. -/
theorem read_whole_store {sg : RefSig} {κ : Kind} {sp : Space} {S : Shape} {e : EltTy} {Val : EltTy → Type}
    (v : View sg κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  subst h
  exact View.read_writes_whole v f w

/-- Point 0: the first store is the features times the first weight matrix, over the whole first scratch buffer; the
    second is block 0 of the first-layer output, computed from that product read back. -/
theorem runA_val (c : Dev nD) (i : grid0.Coords) (arg1 : Memref sig .tc .vmem S1x400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S16x7 .f32) (harg5 : arg5.IsWhole) (arg6 : Memref sig .tc .vmem S1x7 .f32) (harg6 : arg6.IsWhole) (arg7 : Memref sig .tc .vmem S7x7 .f32) (harg7 : arg7.IsWhole) (arg8 : Memref sig .tc .vmem S1x7 .f32) (harg8 : arg8.IsWhole) (arg9 : Memref sig .tc .vmem S10000x7 .f32) (harg9 : arg9.IsWhole) (arg10 : Memref sig .tc .vmem S10000x16 .f32) (harg10 : arg10.IsWhole) (arg11 : Memref sig .tc .vmem S10000x7 .f32) (harg11 : arg11.IsWhole) (hc0 : condA i) (hc1 : condB i) (hc2 : ¬condC i)
    (x0 : Vec F S1x400x10000 .f32) (x1 : Vec F S10000x128 .f32) (x2 : Vec F S128x16 .f32) (x3 : Vec F S1x16 .f32) (x4 : Vec F S16x7 .f32) (x5 : Vec F S1x7 .f32) (x6 : Vec F S7x7 .f32) (x7 : Vec F S1x7 .f32) (xs0 : Vec F S10000x16 .f32) (xs1 y9 : Vec F S10000x7 .f32) :
    (runA c i arg1 harg1 arg2 harg2 arg3 harg3 arg4 harg4 arg5 harg5 arg6 harg6 arg7 harg7 arg8 harg8 arg9 harg9 arg10 harg10 arg11 harg11 hc0 hc1 hc2 x0 x1 x2 x3 x4 x5 x6 x7 xs0 xs1 y9).1
      = ([⟨Rect.unit (s := S10000x16) ![0, 0] S10000x16.size inb_S10000x16_S10000x16_0_0, k0_pay1 x1 x2⟩],
         [⟨Rect.unit (s := S10000x7) (k0_off1 i) S400x7.size (k0_off1_inb i hc1), k0_pay2 x0 (k0_pay1 x1 x2) x3 x4⟩]) := by
  unfold runA
  dsimp only
  sl_unfold_words
  simp only [View.readCov_unit_zero (S := S10000x16) _ hz2, View.readAt_eq_ld, harg1.read_unread, harg2.read_unread, harg3.read_unread,
    harg4.read_unread, harg5.read_unread,
    View.ld_unit_zero (S := S1x400x10000) hz3, View.ld_unit_zero (S := S10000x128) hz2, View.ld_unit_zero (S := S128x16) hz2,
    View.ld_unit_zero (S := S1x16) hz2, View.ld_unit_zero (S := S16x7) hz2]

end Cert.KernelIdeal.Hand
end
-- ==== Proof.Body.Data.lean ====
import proofs.«114416_g2834678415609_cont_sun_c4_672_25_alg».proof.Proof.Body.Base
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-! ## What the kernel computes, block by block

`s1v` is the features times the first weight matrix, computed once at point 0. `s2blk t` is the 400 rows of the first
layer's output that point `t < 25` computes from its row block of the first adjacency matrix; `S2` collects the 25
blocks into the whole first-layer output. `outblk t` is the 400 rows of the result that point `t ≥ 25` computes from
its row block of the second adjacency matrix and the whole `S2`; `OUT` collects them. -/

/-- Point `n` of the grid. -/
def pt (n : ℕ) (h : n < 50) : Fin cfg0.N := ⟨n, lt_of_lt_of_eq h N_eq.symm⟩

@[simp] theorem pt_val (n : ℕ) (h : n < 50) : (pt n h).val = n := rfl

theorem pt_eq (t : Fin cfg0.N) (h : t.val < 50) : pt t.val h = t := Fin.ext rfl

/-- The features times the first weight matrix (what point 0 stores in the first scratch buffer). -/
def s1v (c : Dev nD) : Vec F S10000x16 .f32 := k0_pay1 (iblk m c 1 (pt 0 (by omega))) (iblk m c 2 (pt 0 (by omega)))

/-- The rows of the first layer's output that point `t` computes. -/
def s2blk (c : Dev nD) (t : Fin cfg0.N) : FVec F S400x7 .f32 := k0_pay2 (iblk m c 0 t) (s1v m c) (iblk m c 3 t) (iblk m c 4 t)

/-- The row block a row belongs to. -/
def rowBlk (y : S10000x7.Idx) : ℕ := (y 0).val / 400

theorem rowBlk_lt (y : S10000x7.Idx) : rowBlk y < 25 := by
  have := ValueIdx.idx2_lt0 y; unfold rowBlk; omega

/-- A row's position inside its block, with the column. -/
def rowLoc (y : S10000x7.Idx) : S400x7.Idx := ValueIdx.ix2 ⟨(y 0).val % 400, Nat.mod_lt _ (by omega)⟩ (y 1)

/-- The whole first-layer output: block `r / 400` at row `r % 400`. -/
def S2 (c : Dev nD) : Vec F S10000x7 .f32 := fun y => s2blk m c (pt (rowBlk y) (by have := rowBlk_lt y; omega)) (rowLoc y)

/-- The rows of the result that point `t` computes. -/
def outblk (c : Dev nD) (t : Fin cfg0.N) : FVec F S400x7 .f32 := k0_pay3 (iblk m c 0 t) (S2 m c) (iblk m c 5 t) (iblk m c 6 t) (iblk m c 7 t)

/-- The whole result: block `r / 400`, computed at point `25 + r / 400`, at row `r % 400`. -/
def OUT (c : Dev nD) : Vec F S10000x7 .f32 := fun y => outblk m c (pt (rowBlk y + 25) (by have := rowBlk_lt y; omega)) (rowLoc y)

/-- After `n` points the second scratch buffer holds the first `n` blocks of the first-layer output. -/
def S2ok (c : Dev nD) (n : ℕ) (d : Vec F S10000x7 .f32) : Prop := ∀ y : S10000x7.Idx, (y 0).val < 400 * n → d y = S2 m c y

/-- What a point does to the output's buffer: nothing before point 25; from then on its block of rows becomes the
    result's, the other rows stay. -/
def OUTrel (c : Dev nD) (t : Fin cfg0.N) (Y X : Vec F S10000x7 .f32) : Prop :=
  (t.val < 25 → X = Y) ∧
  (25 ≤ t.val → (∀ y : S10000x7.Idx, rowBlk y + 25 = t.val → X y = OUT m c y) ∧ (∀ y : S10000x7.Idx, rowBlk y + 25 ≠ t.val → X y = Y y))

/-- The invariant between points: before the first, whatever the launch hands over; afterwards the first scratch
    buffer at the features' product, the second with the blocks computed so far, the generator at some state. -/
def Phi (c : Dev nD) : ℕ → sProp 𝕄
  | 0 => Pipeline.ΦA spec0 c
  | n + 1 => iprop(iprop(owns (c : Thread nD τ) scA fullShare (s1v m c) ∗ (∃ d, ⌜S2ok m c (n + 1) d⌝ ∗ owns (c : Thread nD τ) scB fullShare d)) ∗ (∃ r, prngReg c r))

theorem Phi_pos (c : Dev nD) (n : ℕ) (hn : n ≠ 0) :
    Phi m c n = iprop(iprop(owns (c : Thread nD τ) scA fullShare (s1v m c) ∗ (∃ d, ⌜S2ok m c n d⌝ ∗ owns (c : Thread nD τ) scB fullShare d)) ∗ (∃ r, prngReg c r)) := by
  cases n with
  | zero => exact absurd rfl hn
  | succ n => rfl

/-- The proof data of the pipeline on core `c`: the arrays as the region finds them; every input's buffer left as
    found; the output's buffer changed as `OUTrel` says; the invariant `Phi`; whole shares; nothing owed. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => OUTrel m c t Y X
  Φ t := Phi m c t.val
  q _ := fullShare
  owed _ := 0

theorem rdat_A (c : Dev nD) (w : Fin cfg0.W) : (rdat m c).A w = V m c (Pipeline.arrRef spec0 w) := rfl

/-- An input's buffer holds its block wherever the body is handed it: fetched there, or left in place since. -/
theorem finds0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  exact hd.trans (by unfold RDat.fetched RDat.blockOf iblk; rfl)
theorem finds1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  exact hd.trans (by unfold RDat.fetched RDat.blockOf iblk; rfl)
theorem finds2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  exact hd.trans (by unfold RDat.fetched RDat.blockOf iblk; rfl)
theorem finds3 (c : Dev nD) (t : Fin cfg0.N) (Y) (h : (rdat m c).Finds 3 t Y) : Y = iblk m c 3 t := by
  obtain ⟨d, hd⟩ := (rdat m c).finds_in_eq_fetched 3 rfl (fun _ _ _ => rfl) (fun _ _ _ h => h) t Y h
  exact hd.trans (by unfold RDat.fetched RDat.blockOf iblk; rfl)
theorem finds4 (c : Dev nD) (t : Fin cfg0.N) (Y) (h : (rdat m c).Finds 4 t Y) : Y = iblk m c 4 t := by
  obtain ⟨d, hd⟩ := (rdat m c).finds_in_eq_fetched 4 rfl (fun _ _ _ => rfl) (fun _ _ _ h => h) t Y h
  exact hd.trans (by unfold RDat.fetched RDat.blockOf iblk; rfl)
theorem finds5 (c : Dev nD) (t : Fin cfg0.N) (Y) (h : (rdat m c).Finds 5 t Y) : Y = iblk m c 5 t := by
  obtain ⟨d, hd⟩ := (rdat m c).finds_in_eq_fetched 5 rfl (fun _ _ _ => rfl) (fun _ _ _ h => h) t Y h
  exact hd.trans (by unfold RDat.fetched RDat.blockOf iblk; rfl)
theorem finds6 (c : Dev nD) (t : Fin cfg0.N) (Y) (h : (rdat m c).Finds 6 t Y) : Y = iblk m c 6 t := by
  obtain ⟨d, hd⟩ := (rdat m c).finds_in_eq_fetched 6 rfl (fun _ _ _ => rfl) (fun _ _ _ h => h) t Y h
  exact hd.trans (by unfold RDat.fetched RDat.blockOf iblk; rfl)
theorem finds7 (c : Dev nD) (t : Fin cfg0.N) (Y) (h : (rdat m c).Finds 7 t Y) : Y = iblk m c 7 t := by
  obtain ⟨d, hd⟩ := (rdat m c).finds_in_eq_fetched 7 rfl (fun _ _ _ => rfl) (fun _ _ _ h => h) t Y h
  exact hd.trans (by unfold RDat.fetched RDat.blockOf iblk; rfl)

end Cert.KernelIdeal.Hand
end
-- ==== Proof.Body.Steps.lean ====
import proofs.«114416_g2834678415609_cont_sun_c4_672_25_alg».proof.Proof.Body.Pieces
import proofs.«114416_g2834678415609_cont_sun_c4_672_25_alg».proof.Proof.Body.Data
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-! ## One point's effect on the carried buffers -/

theorem rowLoc0 (y : S10000x7.Idx) : ((rowLoc y) 0).val = (y 0).val % 400 := rfl
theorem rowLoc1 (y : S10000x7.Idx) : ((rowLoc y) 1).val = (y 1).val := rfl

/-- Every row of the first-layer output once 25 blocks are in place. -/
theorem S2ok_all (c : Dev nD) (n : ℕ) (hn : 25 ≤ n) (d : Vec F S10000x7 .f32) (hd : S2ok m c n d) : d = S2 m c :=
  funext fun y => hd y (by have := ValueIdx.idx2_lt0 y; omega)

theorem S2ok_mono (c : Dev nD) (n k : ℕ) (hn : 25 ≤ n) (d : Vec F S10000x7 .f32) (hd : S2ok m c n d) : S2ok m c k d :=
  fun y _ => hd y (by have := ValueIdx.idx2_lt0 y; omega)

/-- A point below 25 adds its block of rows to the first-layer output held in the second scratch buffer. -/
theorem S2ok_stepB (c : Dev nD) (t : Fin cfg0.N) (h1 : t.val < 25)
    (hA : ¬condA (grid0.coords t)) (hB : condB (grid0.coords t)) (hC : ¬condC (grid0.coords t))
    (d y9 : Vec F S10000x7 .f32) (hd : S2ok m c t.val d) :
    S2ok m c (t.val + 1) (scB.view.read (Elt F) (scB.view.writes (Elt F) ((Memref.isWhole_whole cc0_scratch1).unread d)
      (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) d y9).1)) := by
  rw [runB_val]
  intro y hy
  by_cases hb : rowBlk y = t.val
  · have e : pt (rowBlk y) (by have := rowBlk_lt y; omega) = t := Fin.ext hb
    refine (read_rows_mem (F := F) (Memref.isWhole_whole cc0_scratch1) d (k0_off1_inb (grid0.coords t) hB)
      (k0_pay2 (iblk m c 0 t) (s1v m c) (iblk m c 3 t) (iblk m c 4 t)) (400 * (t.val % 25)) (off1_eq t) y (rowLoc y) ?_ (rowLoc1 y).symm).trans ?_
    · rw [rowLoc0]; unfold rowBlk at hb; omega
    · exact (congrArg (fun z => s2blk m c z (rowLoc y)) e).symm
  · refine (read_rows_not_mem (F := F) (Memref.isWhole_whole cc0_scratch1) d (k0_off1_inb (grid0.coords t) hB)
      (k0_pay2 (iblk m c 0 t) (s1v m c) (iblk m c 3 t) (iblk m c 4 t)) (400 * (t.val % 25)) (off1_eq t) y ?_).trans (hd y ?_)
    · unfold rowBlk at hb; omega
    · unfold rowBlk at hb; omega

/-- A point from 25 on replaces its block of rows of the output's buffer by the result's, given the whole first-layer
    output in the second scratch buffer. -/
theorem OUTrel_stepC (c : Dev nD) (t : Fin cfg0.N) (h1 : 25 ≤ t.val)
    (hA : ¬condA (grid0.coords t)) (hB : ¬condB (grid0.coords t)) (hC : condC (grid0.coords t))
    (y9 : Vec F S10000x7 .f32) :
    OUTrel m c t y9 ((ms8 t).view.read (Elt F) ((ms8 t).view.writes (Elt F) ((hs8 t).unread y9)
      (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) (S2 m c) y9).1)) := by
  have hN : t.val < 50 := lt_of_lt_of_eq t.isLt N_eq
  rw [runC_val]
  refine ⟨fun h => absurd h (by omega), fun _ => ⟨fun y hb => ?_, fun y hb => ?_⟩⟩
  · have e : pt (rowBlk y + 25) (by have := rowBlk_lt y; omega) = t := Fin.ext hb
    refine (read_rows_mem (F := F) (hs8 t) y9 (k0_off2_inb (grid0.coords t) hC)
      (k0_pay3 (iblk m c 0 t) (S2 m c) (iblk m c 5 t) (iblk m c 6 t) (iblk m c 7 t)) (400 * (t.val % 25)) (off2_eq t) y (rowLoc y) ?_ (rowLoc1 y).symm).trans ?_
    · rw [rowLoc0]; unfold rowBlk at hb; omega
    · exact (congrArg (fun z => outblk m c z (rowLoc y)) e).symm
  · refine read_rows_not_mem (F := F) (hs8 t) y9 (k0_off2_inb (grid0.coords t) hC)
      (k0_pay3 (iblk m c 0 t) (S2 m c) (iblk m c 5 t) (iblk m c 6 t) (iblk m c 7 t)) (400 * (t.val % 25)) (off2_eq t) y ?_
    unfold rowBlk at hb; omega

/-- Point 0 leaves the features' product in the first scratch buffer. -/
theorem s1v_stepA (c : Dev nD) (t : Fin cfg0.N) (hz : t.val = 0)
    (hA : condA (grid0.coords t)) (hB : condB (grid0.coords t)) (hC : ¬condC (grid0.coords t))
    (ds0 : Vec F S10000x16 .f32) (ds1 y9 : Vec F S10000x7 .f32) :
    scA.view.read (Elt F) (scA.view.writes (Elt F) ((Memref.isWhole_whole cc0_scratch0).unread ds0)
      (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) ds0 ds1 y9).1.1) = s1v m c := by
  rw [runA_val]
  dsimp only
  have e : t = pt 0 (by omega) := Fin.ext hz
  rw [read_whole_store scA.view _ hz2]
  exact congrArg (fun z => k0_pay1 (iblk m c 1 z) (iblk m c 2 z)) e

/-- Point 0 puts block 0 of the first-layer output in the second scratch buffer. -/
theorem S2ok_stepA (c : Dev nD) (t : Fin cfg0.N) (hz : t.val = 0)
    (hA : condA (grid0.coords t)) (hB : condB (grid0.coords t)) (hC : ¬condC (grid0.coords t))
    (ds0 : Vec F S10000x16 .f32) (ds1 y9 : Vec F S10000x7 .f32) :
    S2ok m c (t.val + 1) (scB.view.read (Elt F) (scB.view.writes (Elt F) ((Memref.isWhole_whole cc0_scratch1).unread ds1)
      (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) ds0 ds1 y9).1.2)) := by
  rw [runA_val]
  dsimp only
  have e0 : t = pt 0 (by omega) := Fin.ext hz
  have es : k0_pay1 (iblk m c 1 t) (iblk m c 2 t) = s1v m c := congrArg (fun z => k0_pay1 (iblk m c 1 z) (iblk m c 2 z)) e0
  rw [es]
  intro y hy
  have hb : rowBlk y = t.val := by unfold rowBlk; omega
  have e : pt (rowBlk y) (by have := rowBlk_lt y; omega) = t := Fin.ext hb
  refine (read_rows_mem (F := F) (Memref.isWhole_whole cc0_scratch1) ds1 (k0_off1_inb (grid0.coords t) hB)
    (k0_pay2 (iblk m c 0 t) (s1v m c) (iblk m c 3 t) (iblk m c 4 t)) (400 * (t.val % 25)) (off1_eq t) y (rowLoc y) ?_ (rowLoc1 y).symm).trans ?_
  · rw [rowLoc0]; unfold rowBlk at hb; omega
  · exact (congrArg (fun z => s2blk m c z (rowLoc y)) e).symm

end Cert.KernelIdeal.Hand
end
-- ==== Proof.Body.Oblig.lean ====
import proofs.«114416_g2834678415609_cont_sun_c4_672_25_alg».proof.Proof.Body.Steps
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-! ## The body obligation

At every point the body, handed the invariant and the windows' buffers at contents they may hold, runs to the invariant
at the next point and hands the buffers back in the stated relation: the inputs as found, the output's buffer with the
point's block of rows replaced (from point 25 on). The point's case is read off its number. -/

set_option maxHeartbeats 4000000 in
theorem sound_body (c : Dev nD) (t : Fin cfg0.N)
    (Y : (w : Fin cfg0.W) → (cfg0.win w).block.Idx → Elt F (cfg0.win w).elt) (hY : ∀ w, (rdat m c).Finds w t (Y w)) :
    iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2)
    ∗ owns (c : Thread nD τ) (ms3 t) fullShare (Y 3)
    ∗ owns (c : Thread nD τ) (ms4 t) fullShare (Y 4)
    ∗ owns (c : Thread nD τ) (ms5 t) fullShare (Y 5)
    ∗ owns (c : Thread nD τ) (ms6 t) fullShare (Y 6)
    ∗ owns (c : Thread nD τ) (ms7 t) fullShare (Y 7)
    ∗ owns (c : Thread nD τ) (ms8 t) fullShare (Y 8))
    ⊢ wp frame (wpE (defs₀ (F := F)) Variants.none c none) Set.univ (bodyAt0 t) (fun _ => iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X)
    ∗ (∃ X, ⌜(rdat m c).after 3 t (Y 3) X⌝ ∗ owns (c : Thread nD τ) (ms3 t) fullShare X)
    ∗ (∃ X, ⌜(rdat m c).after 4 t (Y 4) X⌝ ∗ owns (c : Thread nD τ) (ms4 t) fullShare X)
    ∗ (∃ X, ⌜(rdat m c).after 5 t (Y 5) X⌝ ∗ owns (c : Thread nD τ) (ms5 t) fullShare X)
    ∗ (∃ X, ⌜(rdat m c).after 6 t (Y 6) X⌝ ∗ owns (c : Thread nD τ) (ms6 t) fullShare X)
    ∗ (∃ X, ⌜(rdat m c).after 7 t (Y 7) X⌝ ∗ owns (c : Thread nD τ) (ms7 t) fullShare X)
    ∗ (∃ X, ⌜(rdat m c).after 8 t (Y 8) X⌝ ∗ owns (c : Thread nD τ) (ms8 t) fullShare X))) := by
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  have e7 := finds7 m c t _ (hY 7)
  rw [e0, e1, e2, e3, e4, e5, e6, e7]
  generalize Y 8 = y9
  unfold bodyAt0
  rw [show (rdat m c).owesAt () t.succ = (rdat m c).owesAt () t.castSucc from rfl]
  rw [show (rdat m c).Φ t.castSucc = Phi m c t.val from rfl, show (rdat m c).Φ t.succ = Phi m c (t.val + 1) from rfl]
  have hN : t.val < 50 := lt_of_lt_of_eq t.isLt N_eq
  rw [Phi_pos m c (t.val + 1) (Nat.succ_ne_zero _)]
  by_cases hz : t.val = 0
  · have hA : condA (grid0.coords t) := (condA_iff t).mpr hz
    have hB : condB (grid0.coords t) := (condB_iff t).mpr (by omega)
    have hC : ¬condC (grid0.coords t) := fun h => by have := (condC_iff t).mp h; omega
    rw [show Phi m c t.val = Pipeline.ΦA spec0 c from by rw [hz]; rfl, PhiA_eq]
    iintro ⟨⟨⟨⟨%ds0, HS0⟩, ⟨%ds1, HS1⟩⟩, Hg⟩, Ho, H0, H1, H2, H3, H4, H5, H6, H7, H8⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) ds0 ds1 y9).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · unfold owns; iexists _; isplitr; swap; · iexact HS0
          ipureintro; exact s1v_stepA m c t hz hA hB hC ds0 ds1 y9
        · iexists _; isplitr; swap
          · unfold owns; iexists _; isplitr; swap; · iexact HS1
            ipureintro; exact rfl
          ipureintro; exact S2ok_stepA m c t hz hA hB hC ds0 ds1 y9
      iexact Hg
    isplitl [Ho]; · iexact Ho
    isplitl [H0]
    · iexists _; isplitr; swap; · iexact H0
      ipureintro; exact rfl
    isplitl [H1]
    · iexists _; isplitr; swap; · iexact H1
      ipureintro; exact rfl
    isplitl [H2]
    · iexists _; isplitr; swap; · iexact H2
      ipureintro; exact rfl
    isplitl [H3]
    · iexists _; isplitr; swap; · iexact H3
      ipureintro; exact rfl
    isplitl [H4]
    · iexists _; isplitr; swap; · iexact H4
      ipureintro; exact rfl
    isplitl [H5]
    · iexists _; isplitr; swap; · iexact H5
      ipureintro; exact rfl
    isplitl [H6]
    · iexists _; isplitr; swap; · iexact H6
      ipureintro; exact rfl
    isplitl [H7]
    · iexists _; isplitr; swap; · iexact H7
      ipureintro; exact rfl
    iexists _; isplitr; swap; · iexact H8
    ipureintro; exact ⟨fun _ => rfl, fun h => absurd h (by omega)⟩
  · rw [Phi_pos m c t.val hz]
    by_cases h1 : t.val < 25
    · have hA : ¬condA (grid0.coords t) := fun h => hz ((condA_iff t).mp h)
      have hB : condB (grid0.coords t) := (condB_iff t).mpr h1
      have hC : ¬condC (grid0.coords t) := fun h => by have := (condC_iff t).mp h; omega
      iintro ⟨⟨⟨HS0, ⟨%d, %hd, HS1⟩⟩, Hg⟩, Ho, H0, H1, H2, H3, H4, H5, H6, H7, H8⟩
      iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) d y9).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          · iexists _; isplitr; swap
            · unfold owns; iexists _; isplitr; swap; · iexact HS1
              ipureintro; exact rfl
            ipureintro; exact S2ok_stepB m c t h1 hA hB hC d y9 hd
        iexact Hg
      isplitl [Ho]; · iexact Ho
      isplitl [H0]
      · iexists _; isplitr; swap; · iexact H0
        ipureintro; exact rfl
      isplitl [H1]
      · iexists _; isplitr; swap; · iexact H1
        ipureintro; exact rfl
      isplitl [H2]
      · iexists _; isplitr; swap; · iexact H2
        ipureintro; exact rfl
      isplitl [H3]
      · iexists _; isplitr; swap; · iexact H3
        ipureintro; exact rfl
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      iexists _; isplitr; swap; · iexact H8
      ipureintro; exact ⟨fun _ => rfl, fun h => absurd h (by omega)⟩
    · have hA : ¬condA (grid0.coords t) := fun h => hz ((condA_iff t).mp h)
      have hB : ¬condB (grid0.coords t) := fun h => h1 ((condB_iff t).mp h)
      have hC : condC (grid0.coords t) := (condC_iff t).mpr (by omega)
      iintro ⟨⟨⟨HS0, ⟨%d, %hd, HS1⟩⟩, Hg⟩, Ho, H0, H1, H2, H3, H4, H5, H6, H7, H8⟩
      obtain rfl := S2ok_all m c t.val (by omega) d hd
      iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scA (Memref.isWhole_whole cc0_scratch0) scB (Memref.isWhole_whole cc0_scratch1) hA hB hC (iblk m c 0 t) (iblk m c 1 t) (iblk m c 2 t) (iblk m c 3 t) (iblk m c 4 t) (iblk m c 5 t) (iblk m c 6 t) (iblk m c 7 t) (s1v m c) (S2 m c) y9).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · isplitl [HS0]
          · iexact HS0
          · iexists _; isplitr; swap; · iexact HS1
            ipureintro; exact S2ok_mono m c t.val (t.val + 1) (by omega) _ hd
        iexact Hg
      isplitl [Ho]; · iexact Ho
      isplitl [H0]
      · iexists _; isplitr; swap; · iexact H0
        ipureintro; exact rfl
      isplitl [H1]
      · iexists _; isplitr; swap; · iexact H1
        ipureintro; exact rfl
      isplitl [H2]
      · iexists _; isplitr; swap; · iexact H2
        ipureintro; exact rfl
      isplitl [H3]
      · iexists _; isplitr; swap; · iexact H3
        ipureintro; exact rfl
      isplitl [H4]
      · iexists _; isplitr; swap; · iexact H4
        ipureintro; exact rfl
      isplitl [H5]
      · iexists _; isplitr; swap; · iexact H5
        ipureintro; exact rfl
      isplitl [H6]
      · iexists _; isplitr; swap; · iexact H6
        ipureintro; exact rfl
      isplitl [H7]
      · iexists _; isplitr; swap; · iexact H7
        ipureintro; exact rfl
      iexists _; isplitr; swap
      · unfold owns; iexists _; isplitr; swap; · iexact H8
        ipureintro; exact rfl
      ipureintro; exact OUTrel_stepC m c t (by omega) hA hB hC y9

/-- The body obligation of the relational proof data, at every point. -/
theorem body_obligation (c : Dev nD) : (rdat m c).BodyObligation (defs₀ (F := F)) Variants.none () Set.univ := fun t Y hY => by
  rw [bigSep_W0, bigSep_W0]
  exact sound_body m c t Y hY

/-- What the launch hands the region is the invariant before the first point. -/
theorem hin (c : Dev nD) : Pipeline.ΦA spec0 c ⊢ (rdat m c).Φ 0 := Idealize.SL.BI.Entails.refl _

/-- After the last point the invariant gives the launch's back: the scratch buffers' contents are forgotten. -/
theorem hout (c : Dev nD) : (rdat m c).Φ (Fin.last cfg0.N) ⊢ Pipeline.ΦA spec0 c := by
  rw [show (rdat m c).Φ (Fin.last cfg0.N) = Phi m c 50 from rfl, Phi_pos m c 50 (by omega), PhiA_eq]
  iintro ⟨⟨HS0, ⟨%d, %hd, HS1⟩⟩, Hg⟩
  isplitl [HS0 HS1]
  · isplitl [HS0]
    · iexists _; iexact HS0
    iexists _; iexact HS1
  iexact Hg

end Cert.KernelIdeal.Hand
end
-- ==== Proof.Body.Frame.lean ====
import proofs.«114416_g2834678415609_cont_sun_c4_672_25_alg».proof.Proof.Body.Oblig
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ) (ρ : Dev nD → PrngReg)

/-! ## The run and the frame -/

set_option backward.isDefEq.respectTransparency.types false in
/-- From any memory with zero counters every weakly fair execution of @main terminates, and at the end every array of
    the pipeline holds contents it may hold after every write-back — an input its entry contents, the output what the
    relation `OUTrel` allows —, every other unscoped buffer its entry contents. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun c w => rdat_A m c w) (hin := hin m) (hout := hout m)

/-- The frame: every argument array ends as launched. A staged argument is an input window's array, never written;
    the three biases reach the region reshaped and their own arrays bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Eq.mp (congrFun ((rdat m c).ArrAt_in 1 rfl _) _) ((h c).1 1)).trans ((rdat_A m c 1).trans (V_main_arg0 m c)),
      (Eq.mp (congrFun ((rdat m c).ArrAt_in 0 rfl _) _) ((h c).1 0)).trans ((rdat_A m c 0).trans (V_main_arg1 m c)),
      (Eq.mp (congrFun ((rdat m c).ArrAt_in 2 rfl _) _) ((h c).1 2)).trans ((rdat_A m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c)),
      ((h c).2 main_arg5 (Pipeline.mem_restRefs_of main_arg5 (by decide) (by decide))).trans (V_main_arg5 m c),
      (Eq.mp (congrFun ((rdat m c).ArrAt_in 6 rfl _) _) ((h c).1 6)).trans ((rdat_A m c 6).trans (V_main_arg6 m c)),
      ((h c).2 main_arg7 (Pipeline.mem_restRefs_of main_arg7 (by decide) (by decide))).trans (V_main_arg7 m c)⟩) (run_main m ρ)

end Cert.KernelIdeal.Hand
end
-- ==== Proof.Body.Final.lean ====
import proofs.«114416_g2834678415609_cont_sun_c4_672_25_alg».proof.Proof.Body.Frame
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen

variable (m : (ℓ : Loc nD τ sig) → Buf (Elt F) ℓ)

/-! ## The result array after the run

The output's buffer is written back once, after the last point. What a point may leave in it holds the result's rows
for every block done so far (induction on the point); after point 49 that is every row. -/

/-- The output window is never fetched. -/
theorem fetch8 : ∀ t : Fin cfg0.N, (cfg0.win 8).fetch t = false :=
  (by decide +kernel : ∀ t : Fin grid0.N, win0_8.fetch t = false)

/-- The output window's block is always the whole array. -/
theorem index8 : ∀ t : Fin cfg0.N, win0_8.index t 0 = 0 ∧ win0_8.index t 1 = 0 :=
  (by decide +kernel : ∀ t : Fin grid0.N, win0_8.index t 0 = 0 ∧ win0_8.index t 1 = 0)

/-- What a point may leave in the output's buffer: the result's rows in every block up to the point's. -/
theorem leaves8 (c : Dev nD) : ∀ (n : ℕ) (t : Fin cfg0.N), t.val = n → ∀ X, (rdat m c).Leaves 8 t X →
    ∀ y : S10000x7.Idx, rowBlk y + 25 ≤ t.val → X y = OUT m c y := by
  intro n
  induction n using Nat.strong_induction_on with
  | _ n ih =>
    intro t htn X hL y hy
    obtain ⟨Y, hF, hR⟩ := hL
    have hR' : OUTrel m c t Y X := hR
    have hN : t.val < 50 := lt_of_lt_of_eq t.isLt N_eq
    obtain ⟨hin, hout⟩ := hR'.2 (by omega)
    by_cases hb : rowBlk y + 25 = t.val
    · exact hin y hb
    · rw [hout y hb]
      have ht0 : t.val ≠ 0 := by omega
      rcases ((rdat m c).finds_of_pos (fetch8 t) ht0 Y).mp hF with hfl | hL'
      · exfalso
        have h49 := (flush0_8 ⟨t.val - 1, Nat.lt_of_le_of_lt (Nat.sub_le _ _) t.isLt⟩).mp hfl
        have h49' : (t.val - 1) % 50 = 49 := h49
        omega
      · exact ih (t.val - 1) (by omega) ⟨t.val - 1, Nat.lt_of_le_of_lt (Nat.sub_le _ _) t.isLt⟩ rfl Y hL' y (by
          show rowBlk y + 25 ≤ t.val - 1; omega)

/-- No write-back before the last point: the result array keeps its entry contents. -/
theorem arrAt8_below (c : Dev nD) : ∀ (n : ℕ), n ≤ 49 → ∀ G, (rdat m c).ArrAt 8 n G → G = (rdat m c).A 8
  | 0, _, G, h => h
  | n + 1, hn, G, h => by
    have hN : n < cfg0.N := by rw [N_eq]; omega
    simp only [RDat.ArrAt] at h
    rw [dif_pos hN, if_neg (fun hf => by
      have h49 : n % 50 = 49 := (flush0_8 ⟨n, hN⟩).mp hf
      omega)] at h
    exact arrAt8_below c n (by omega) G h

/-- The last point of the grid. -/
def t49 : Fin cfg0.N := pt 49 (by omega)

/-- The result array after the run: the entry contents overwritten, through the last point's block (the whole array),
    by the result. -/
def finalArr (c : Dev nD) : Buf (Elt F) ((cfg0.win 8).arr.view.loc (c.tc : Thread nD τ)) :=
  ((cfg0.win 8).blk t49).view.write (Elt F) ((rdat m c).A 8)
    ((cfg0.win 8).cut (cfg0.grid.coords t49) (OUT m c)) Finset.univ

theorem arrAt8_succ (c : Dev nD) (n : ℕ) (hN : n < cfg0.N) (hf : (cfg0.win 8).flush ⟨n, hN⟩ = true)
    (G : Buf (Elt F) ((cfg0.win 8).arr.view.loc (c.tc : Thread nD τ))) (h : (rdat m c).ArrAt 8 (n + 1) G) :
    (rdat m c).ArrStep 8 ⟨n, hN⟩ ((rdat m c).ArrAt 8 n) G := by
  simp only [RDat.ArrAt] at h
  rw [dif_pos hN, if_pos hf] at h
  exact h

theorem final (c : Dev nD) (G : Buf (Elt F) ((cfg0.win 8).arr.view.loc (c.tc : Thread nD τ)))
    (h : (rdat m c).ArrAt 8 cfg0.N G) : G = finalArr m c := by
  have hN : 49 < cfg0.N := by rw [N_eq]; omega
  have key : ∀ n, n = cfg0.N → (rdat m c).ArrAt 8 n G → G = finalArr m c := by
    intro n hn h
    have hn' : n = 49 + 1 := hn.trans N_eq
    subst hn'
    obtain ⟨G₀, X, hG₀, hL, rfl⟩ := arrAt8_succ m c 49 hN ((flush0_8 ⟨49, hN⟩).mpr (show 49 % 50 = 49 from rfl)) G h
    obtain rfl := arrAt8_below m c 49 le_rfl G₀ hG₀
    have hX : X = OUT m c := funext fun y => leaves8 m c 49 ⟨49, hN⟩ rfl X hL y (by
      have := rowBlk_lt y; show rowBlk y + 25 ≤ 49; omega)
    rw [hX]
    unfold finalArr t49 pt
    rfl
  exact key _ rfl h

/-- The result array, index by index. -/
theorem finalArr_apply (c : Dev nD) (i : S10000x7.Idx) : finalArr m c i = OUT m c i := by
  have hemb : ((cfg0.win 8).blk t49).view.emb i = i := funext fun a => Fin.ext (by
    match a with
    | ⟨0, _⟩ => show win0_8.index t49 0 * 10000 + 1 * (i 0).val = (i 0).val; rw [(index8 _).1]; omega
    | ⟨1, _⟩ => show win0_8.index t49 1 * 7 + 1 * (i 1).val = (i 1).val; rw [(index8 _).2]; omega)
  unfold finalArr
  refine (congrArg _ hemb.symm).trans ?_
  rw [View.write_emb_of_mem _ _ (Finset.mem_univ _)]
  rfl

/-- The run, with the result array named. -/
theorem run_final (ρ : Dev nD → PrngReg) :
    θ_run defs (onTc (τ := τ) (main (F := F))) ⟨m, fun _ => 0, ρ⟩ (fun r => ∀ c : Dev nD,
      r.2.mem ((c.tc : Thread nD τ).loc main_v3) = finalArr m c) :=
  (θ_run defs _ _).mono (fun _ h c => final m c _ ((h c).1 8)) (run_main m ρ)

/-- The run, with the result array named and the argument arrays unchanged. -/
theorem run_full (ρ : Dev nD → PrngReg) :
    θ_run defs (onTc (τ := τ) (main (F := F))) ⟨m, fun _ => 0, ρ⟩ (fun r => ∀ c : Dev nD,
      r.2.mem ((c.tc : Thread nD τ).loc main_v3) = finalArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨final m c _ ((h c).1 8),
      (Eq.mp (congrFun ((rdat m c).ArrAt_in 1 rfl _) _) ((h c).1 1)).trans ((rdat_A m c 1).trans (V_main_arg0 m c)),
      (Eq.mp (congrFun ((rdat m c).ArrAt_in 0 rfl _) _) ((h c).1 0)).trans ((rdat_A m c 0).trans (V_main_arg1 m c)),
      (Eq.mp (congrFun ((rdat m c).ArrAt_in 2 rfl _) _) ((h c).1 2)).trans ((rdat_A m c 2).trans (V_main_arg2 m c)),
      ((h c).2 main_arg3 (Pipeline.mem_restRefs_of main_arg3 (by decide) (by decide))).trans (V_main_arg3 m c),
      (Eq.mp (congrFun ((rdat m c).ArrAt_in 4 rfl _) _) ((h c).1 4)).trans ((rdat_A m c 4).trans (V_main_arg4 m c)),
      ((h c).2 main_arg5 (Pipeline.mem_restRefs_of main_arg5 (by decide) (by decide))).trans (V_main_arg5 m c),
      (Eq.mp (congrFun ((rdat m c).ArrAt_in 6 rfl _) _) ((h c).1 6)).trans ((rdat_A m c 6).trans (V_main_arg6 m c)),
      ((h c).2 main_arg7 (Pipeline.mem_restRefs_of main_arg7 (by decide) (by decide))).trans (V_main_arg7 m c)⟩) (run_main m ρ)

end Cert.KernelIdeal.Hand
end
-- ==== Proof.Body.Blocks.lean ====
import proofs.«114416_g2834678415609_cont_sun_c4_672_25_alg».proof.Proof.Body.Data
import Idealize.ShloMosaic.Lib.Pipeline.FrameBody
import Idealize.ShloMosaic.Lib.Ring
import Idealize.ShloMosaic.Lib.Tactic
import Idealize.ShloMosaic.Lib.WritesUnit
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

open Cert.KernelIdeal Cert.KernelIdeal.Gen Idealize.ShloMosaic.ValueIdx

variable (m : (ℓ : Loc nD τ sig) → Buf (Elt F) ℓ)

/-! ## The windows' blocks, read off the argument arrays

Window 0 walks the two adjacency matrices in blocks of 400 rows: point `t` reads matrix `t / 25`, rows
`400 * (t % 25) …`. Every other window's block is its whole array, at every point; three of them are the biases, which
the host reshapes to one row before the region. -/

theorem index0 : ∀ t : Fin cfg0.N, win0_0.index t 0 = t.val / 25 ∧ win0_0.index t 1 = t.val % 25 ∧ win0_0.index t 2 = 0 :=
  (by decide +kernel : ∀ t : Fin grid0.N, win0_0.index t 0 = t.val / 25 ∧ win0_0.index t 1 = t.val % 25 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)

/-- Window 0's block at point `t`: rows `400 * (t % 25) …` of adjacency matrix `t / 25`. -/
theorem iblk0_apply (c : Dev nD) (t : Fin cfg0.N) (p : Fin 400) (k : Fin 10000) (g : Fin 2) (r : Fin 10000)
    (hg : g.val = t.val / 25) (hr : r.val = 400 * (t.val % 25) + p.val) :
    iblk m c 0 t (ix3 (0 : Fin 1) p k) = m ((c : Thread nD τ).loc main_arg1) (ix3 g r k) := by
  unfold iblk
  rw [← V_main_arg1 m c]
  show V m c main_arg1 (((cfg0.win 0).blk t).view.emb (ix3 (0 : Fin 1) p k)) = V m c main_arg1 (ix3 g r k)
  refine congrArg _ (funext fun x => Fin.ext ?_)
  match x with
  | ⟨0, _⟩ => show win0_0.index t 0 * 1 + 1 * 0 = g.val; rw [(index0 t).1, hg]; omega
  | ⟨1, _⟩ => show win0_0.index t 1 * 400 + 1 * p.val = r.val; rw [(index0 t).2.1, hr]; omega
  | ⟨2, _⟩ => show win0_0.index t 2 * 10000 + 1 * k.val = k.val; rw [(index0 t).2.2]; omega

/-- Window 1's block is the whole array `main_arg0`. -/
theorem iblk1_apply (c : Dev nD) (t : Fin cfg0.N) (a : Fin 10000) (b : Fin 128) :
    iblk m c 1 t (ix2 a b) = m ((c : Thread nD τ).loc main_arg0) (ix2 a b) := by
  unfold iblk
  rw [← V_main_arg0 m c]
  show V m c main_arg0 (((cfg0.win 1).blk t).view.emb (ix2 a b)) = V m c main_arg0 (ix2 a b)
  refine congrArg _ (funext fun x => Fin.ext ?_)
  match x with
  | ⟨0, _⟩ => show win0_1.index t 0 * 10000 + 1 * a.val = a.val; rw [(index1 t).1]; omega
  | ⟨1, _⟩ => show win0_1.index t 1 * 128 + 1 * b.val = b.val; rw [(index1 t).2]; omega

/-- Window 2's block is the whole array `main_arg2`. -/
theorem iblk2_apply (c : Dev nD) (t : Fin cfg0.N) (a : Fin 128) (b : Fin 16) :
    iblk m c 2 t (ix2 a b) = m ((c : Thread nD τ).loc main_arg2) (ix2 a b) := by
  unfold iblk
  rw [← V_main_arg2 m c]
  show V m c main_arg2 (((cfg0.win 2).blk t).view.emb (ix2 a b)) = V m c main_arg2 (ix2 a b)
  refine congrArg _ (funext fun x => Fin.ext ?_)
  match x with
  | ⟨0, _⟩ => show win0_2.index t 0 * 128 + 1 * a.val = a.val; rw [(index2 t).1]; omega
  | ⟨1, _⟩ => show win0_2.index t 1 * 16 + 1 * b.val = b.val; rw [(index2 t).2]; omega

/-- Window 4's block is the whole array `main_arg4`. -/
theorem iblk4_apply (c : Dev nD) (t : Fin cfg0.N) (a : Fin 16) (b : Fin 7) :
    iblk m c 4 t (ix2 a b) = m ((c : Thread nD τ).loc main_arg4) (ix2 a b) := by
  unfold iblk
  rw [← V_main_arg4 m c]
  show V m c main_arg4 (((cfg0.win 4).blk t).view.emb (ix2 a b)) = V m c main_arg4 (ix2 a b)
  refine congrArg _ (funext fun x => Fin.ext ?_)
  match x with
  | ⟨0, _⟩ => show win0_4.index t 0 * 16 + 1 * a.val = a.val; rw [(index4 t).1]; omega
  | ⟨1, _⟩ => show win0_4.index t 1 * 7 + 1 * b.val = b.val; rw [(index4 t).2]; omega

/-- Window 6's block is the whole array `main_arg6`. -/
theorem iblk6_apply (c : Dev nD) (t : Fin cfg0.N) (a : Fin 7) (b : Fin 7) :
    iblk m c 6 t (ix2 a b) = m ((c : Thread nD τ).loc main_arg6) (ix2 a b) := by
  unfold iblk
  rw [← V_main_arg6 m c]
  show V m c main_arg6 (((cfg0.win 6).blk t).view.emb (ix2 a b)) = V m c main_arg6 (ix2 a b)
  refine congrArg _ (funext fun x => Fin.ext ?_)
  match x with
  | ⟨0, _⟩ => show win0_6.index t 0 * 7 + 1 * a.val = a.val; rw [(index6 t).1]; omega
  | ⟨1, _⟩ => show win0_6.index t 1 * 7 + 1 * b.val = b.val; rw [(index6 t).2]; omega

/-- Window 3's block is the bias `main_arg3` as one row (the host reshapes it before the region). -/
theorem V_main_v0 (c : Dev nD) : (V m c main_v0 : S1x16.Idx → Elt F .f32) = shapeCast S1x16 (m ((c : Thread nD τ).loc main_arg3)) shapeCasts_S16_S1x16 := by
  dsimp only [V, hostOps0]; after_results; rfl

theorem iblk3_apply (c : Dev nD) (t : Fin cfg0.N) (j : Fin 16) :
    iblk m c 3 t (ix2 (0 : Fin 1) j) = m ((c : Thread nD τ).loc main_arg3) (ix1 j) := by
  unfold iblk
  refine Eq.trans ?_ (shapeCast_a_1a_apply (m ((c : Thread nD τ).loc main_arg3)) shapeCasts_S16_S1x16 (0 : Fin 1) j)
  rw [← V_main_v0 m c]
  show V m c main_v0 (((cfg0.win 3).blk t).view.emb (ix2 (0 : Fin 1) j)) = V m c main_v0 (ix2 (0 : Fin 1) j)
  refine congrArg _ (funext fun x => Fin.ext ?_)
  match x with
  | ⟨0, _⟩ => show win0_3.index t 0 * 1 + 1 * 0 = 0; rw [(index3 t).1]
  | ⟨1, _⟩ => show win0_3.index t 1 * 16 + 1 * j.val = j.val; rw [(index3 t).2]; omega

/-- Window 5's block is the bias `main_arg5` as one row (the host reshapes it before the region). -/
theorem V_main_v1 (c : Dev nD) : (V m c main_v1 : S1x7.Idx → Elt F .f32) = shapeCast S1x7 (m ((c : Thread nD τ).loc main_arg5)) shapeCasts_S7_S1x7 := by
  dsimp only [V, hostOps0]; after_results; rfl

theorem iblk5_apply (c : Dev nD) (t : Fin cfg0.N) (j : Fin 7) :
    iblk m c 5 t (ix2 (0 : Fin 1) j) = m ((c : Thread nD τ).loc main_arg5) (ix1 j) := by
  unfold iblk
  refine Eq.trans ?_ (shapeCast_a_1a_apply (m ((c : Thread nD τ).loc main_arg5)) shapeCasts_S7_S1x7 (0 : Fin 1) j)
  rw [← V_main_v1 m c]
  show V m c main_v1 (((cfg0.win 5).blk t).view.emb (ix2 (0 : Fin 1) j)) = V m c main_v1 (ix2 (0 : Fin 1) j)
  refine congrArg _ (funext fun x => Fin.ext ?_)
  match x with
  | ⟨0, _⟩ => show win0_5.index t 0 * 1 + 1 * 0 = 0; rw [(index5 t).1]
  | ⟨1, _⟩ => show win0_5.index t 1 * 7 + 1 * j.val = j.val; rw [(index5 t).2]; omega

/-- Window 7's block is the bias `main_arg7` as one row (the host reshapes it before the region). -/
theorem V_main_v2 (c : Dev nD) : (V m c main_v2 : S1x7.Idx → Elt F .f32) = shapeCast S1x7 (m ((c : Thread nD τ).loc main_arg7)) shapeCasts_S7_S1x7 := by
  dsimp only [V, hostOps0]; after_results; rfl

theorem iblk7_apply (c : Dev nD) (t : Fin cfg0.N) (j : Fin 7) :
    iblk m c 7 t (ix2 (0 : Fin 1) j) = m ((c : Thread nD τ).loc main_arg7) (ix1 j) := by
  unfold iblk
  refine Eq.trans ?_ (shapeCast_a_1a_apply (m ((c : Thread nD τ).loc main_arg7)) shapeCasts_S7_S1x7 (0 : Fin 1) j)
  rw [← V_main_v2 m c]
  show V m c main_v2 (((cfg0.win 7).blk t).view.emb (ix2 (0 : Fin 1) j)) = V m c main_v2 (ix2 (0 : Fin 1) j)
  refine congrArg _ (funext fun x => Fin.ext ?_)
  match x with
  | ⟨0, _⟩ => show win0_7.index t 0 * 1 + 1 * 0 = 0; rw [(index7 t).1]
  | ⟨1, _⟩ => show win0_7.index t 1 * 7 + 1 * j.val = j.val; rw [(index7 t).2]; omega

end Cert.KernelIdeal.Hand
end
-- ==== Proof.Spec.lean ====
import Idealize.ShloMosaic.PureOps.Ideal
import Idealize.ShloMosaic.Lib.ValueIdx
import Mathlib.Data.Finset.Fold

/-!
  The two-layer graph convolution with a final linear layer and a row-wise log-softmax, written row by row over the
  extended reals. Every function here takes one row of an adjacency matrix (or of the features) and whole small
  matrices, and returns one row of the next stage: both programs are read, index by index, as these.
-/

noncomputable section

open scoped BigOperators

namespace Cert.Spec

open Idealize.ShloMosaic

/-- The zero the rectifier compares with, as the programs spell it. -/
abbrev zeroW : EReal := Ideal.ofBits .f32 0x00000000#32
/-- The value a row maximum starts from (minus infinity), as the programs spell it. -/
abbrev ninfW : EReal := Ideal.ofBits .f32 0xFF800000#32

/-- One row of the features times the first weight matrix. -/
def prod1 (xrow : Fin 128 → EReal) (W1 : Fin 128 → Fin 16 → EReal) (j : Fin 16) : EReal :=
  ∑ k : Fin 128, xrow k * W1 k j

/-- One row of the first layer's output: the adjacency row times the features' product, plus the bias, rectified, times
    the second weight matrix. -/
def lay1 (arow : Fin 10000 → EReal) (s1 : Fin 10000 → Fin 16 → EReal) (b1 : Fin 16 → EReal) (W2 : Fin 16 → Fin 7 → EReal)
    (q : Fin 7) : EReal :=
  ∑ j : Fin 16, max ((∑ k : Fin 10000, arow k * s1 k j) + b1 j) zeroW * W2 j q

/-- One row of the final linear layer: the adjacency row times the first layer's output, plus the bias, times the last
    weight matrix, plus the last bias. -/
def lin2 (arow : Fin 10000 → EReal) (s2 : Fin 10000 → Fin 7 → EReal) (b2 : Fin 7 → EReal) (WL : Fin 7 → Fin 7 → EReal)
    (bL : Fin 7 → EReal) (q : Fin 7) : EReal :=
  (∑ j : Fin 7, ((∑ k : Fin 10000, arow k * s2 k j) + b2 j) * WL j q) + bL q

/-- A row's maximum, folded from minus infinity. -/
def rowMax (o : Fin 7 → EReal) : EReal := (Finset.univ : Finset (Fin 7)).fold max ninfW o

/-- The log-softmax of a row: shift by the maximum, subtract the logarithm of the sum of the exponentials. -/
def lsm (o : Fin 7 → EReal) (q : Fin 7) : EReal :=
  (o q - rowMax o) - Ideal.log (∑ q' : Fin 7, Ideal.exp (o q' - rowMax o))

/-- The row maximum is at least its starting value, so taking the maximum with that value again changes nothing. -/
theorem max_ninf_rowMax (o : Fin 7 → EReal) : max ninfW (rowMax o) = rowMax o :=
  max_eq_right ((Finset.le_fold_max _).mpr (Or.inl le_rfl))

/-- The first layer's row depends on its arguments entry by entry. -/
theorem lay1_congr {arow arow' : Fin 10000 → EReal} {s1 s1' : Fin 10000 → Fin 16 → EReal} {b1 b1' : Fin 16 → EReal}
    {W2 W2' : Fin 16 → Fin 7 → EReal} (h1 : ∀ k, arow k = arow' k) (h2 : ∀ k j, s1 k j = s1' k j) (h3 : ∀ j, b1 j = b1' j)
    (h4 : ∀ j q, W2 j q = W2' j q) (q : Fin 7) : lay1 arow s1 b1 W2 q = lay1 arow' s1' b1' W2' q := by
  obtain rfl : arow = arow' := funext h1
  obtain rfl : s1 = s1' := funext fun k => funext (h2 k)
  obtain rfl : b1 = b1' := funext h3
  obtain rfl : W2 = W2' := funext fun j => funext (h4 j)
  rfl

/-- The final linear layer's row depends on its arguments entry by entry. -/
theorem lin2_congr {arow arow' : Fin 10000 → EReal} {s2 s2' : Fin 10000 → Fin 7 → EReal} {b2 b2' : Fin 7 → EReal}
    {WL WL' : Fin 7 → Fin 7 → EReal} {bL bL' : Fin 7 → EReal} (h1 : ∀ k, arow k = arow' k) (h2 : ∀ k j, s2 k j = s2' k j)
    (h3 : ∀ j, b2 j = b2' j) (h4 : ∀ j q, WL j q = WL' j q) (h5 : ∀ q, bL q = bL' q) (q : Fin 7) :
    lin2 arow s2 b2 WL bL q = lin2 arow' s2' b2' WL' bL' q := by
  obtain rfl : arow = arow' := funext h1
  obtain rfl : s2 = s2' := funext fun k => funext (h2 k)
  obtain rfl : b2 = b2' := funext h3
  obtain rfl : WL = WL' := funext fun j => funext (h4 j)
  obtain rfl : bL = bL' := funext h5
  rfl

/-- The features' product depends on its arguments entry by entry. -/
theorem prod1_congr {xrow xrow' : Fin 128 → EReal} {W1 W1' : Fin 128 → Fin 16 → EReal} (h1 : ∀ k, xrow k = xrow' k)
    (h2 : ∀ k j, W1 k j = W1' k j) (j : Fin 16) : prod1 xrow W1 j = prod1 xrow' W1' j := by
  obtain rfl : xrow = xrow' := funext h1
  obtain rfl : W1 = W1' := funext fun k => funext (h2 k)
  rfl

/-- The log-softmax depends on its row entry by entry. -/
theorem lsm_congr {o o' : Fin 7 → EReal} (h : ∀ q, o q = o' q) (q : Fin 7) : lsm o q = lsm o' q := by
  obtain rfl : o = o' := funext h
  rfl

end Cert.Spec

end
-- ==== Proof.KPay.lean ====
import proofs.«114416_g2834678415609_cont_sun_c4_672_25_alg».proof.Proof.Gen.KernelIdeal.Skeleton
import proofs.«114416_g2834678415609_cont_sun_c4_672_25_alg».proof.Proof.Spec
import Idealize.ShloMosaic.Lib.ValueIdx
import Idealize.ShloMosaic.Lib.ValueLayout
import Idealize.ShloMosaic.Lib.Pipeline.Value
import Idealize.ShloMosaic.PureOps.Ideal.Laws

/-!
  The kernel's three stored values read at an entry, over the extended reals: each is one row of a stage of the network
  (`Cert.Spec`), computed from the corresponding row of the adjacency block.
-/

set_option maxRecDepth 16384

noncomputable section

open scoped BigOperators

namespace Cert.KernelIdeal.Pay

open Idealize.ShloMosaic Idealize.ShloMosaic.ValueIdx Cert.KernelIdeal Cert.KernelIdeal.Gen

/-! ## Columns kept as a unit axis -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The five matrix products -/

theorem lhsA_0 (i : S10000x16.Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhsA_1 (i : S10000x16.Idx) (q : dot_S10000x128_S128x16_S10000x16_1_0_0_1_n_n.contr.Idx) : (dot_S10000x128_S128x16_S10000x16_1_0_0_1_n_n.lhsIdx i q 1).val = (q ⟨0, by decide⟩).val :=
  dot_S10000x128_S128x16_S10000x16_1_0_0_1_n_n.lhsIdx_val_of_single rfl i q
theorem rhsA_0 (i : S10000x16.Idx) (q : dot_S10000x128_S128x16_S10000x16_1_0_0_1_n_n.contr.Idx) : (dot_S10000x128_S128x16_S10000x16_1_0_0_1_n_n.rhsIdx i q 0).val = (q ⟨0, by decide⟩).val :=
  dot_S10000x128_S128x16_S10000x16_1_0_0_1_n_n.rhsIdx_val_of_single rfl i q
theorem rhsA_1 (i : S10000x16.Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl
/-- The matrix product into a zero accumulator, at an entry: the sum over the contracted axis. -/
theorem matA_apply {φ₁ φ₂ : FTy} (l : FVec Ideal S10000x128 φ₁) (r : FVec Ideal S128x16 φ₂) (a : Fin 10000) (b : Fin 16) :
    matmul dot_S10000x128_S128x16_S10000x16_1_0_0_1_n_n none l r (constant (F := Ideal) S10000x16 .f32 0x00000000#32) (ix2 a b) = ∑ k : Fin 128, l (ix2 a k) * r (ix2 k b) := by
  simp only [matmul]
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 a b) ((contrEquiv1 dot_S10000x128_S128x16_S10000x16_1_0_0_1_n_n 128 rfl rfl).symm k) = ix2 a k := funext fun x => Fin.ext (by
    match x with
    | ⟨0, _⟩ => exact lhsA_0 _ _
    | ⟨1, _⟩ => exact (lhsA_1 _ _).trans hk)
  have er : dot_S10000x128_S128x16_S10000x16_1_0_0_1_n_n.rhsIdx (ix2 a b) ((contrEquiv1 dot_S10000x128_S128x16_S10000x16_1_0_0_1_n_n 128 rfl rfl).symm k) = ix2 k b := funext fun x => Fin.ext (by
    match x with
    | ⟨0, _⟩ => exact (rhsA_0 _ _).trans hk
    | ⟨1, _⟩ => exact rhsA_1 _ _)
  rw [el, er]

theorem lhsB_0 (i : S400x16.Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhsB_1 (i : S400x16.Idx) (q : dot_S400x10000_S10000x16_S400x16_1_0_0_1_n_n.contr.Idx) : (dot_S400x10000_S10000x16_S400x16_1_0_0_1_n_n.lhsIdx i q 1).val = (q ⟨0, by decide⟩).val :=
  dot_S400x10000_S10000x16_S400x16_1_0_0_1_n_n.lhsIdx_val_of_single rfl i q
theorem rhsB_0 (i : S400x16.Idx) (q : dot_S400x10000_S10000x16_S400x16_1_0_0_1_n_n.contr.Idx) : (dot_S400x10000_S10000x16_S400x16_1_0_0_1_n_n.rhsIdx i q 0).val = (q ⟨0, by decide⟩).val :=
  dot_S400x10000_S10000x16_S400x16_1_0_0_1_n_n.rhsIdx_val_of_single rfl i q
theorem rhsB_1 (i : S400x16.Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl
/-- The matrix product into a zero accumulator, at an entry: the sum over the contracted axis. -/
theorem matB_apply {φ₁ φ₂ : FTy} (l : FVec Ideal S400x10000 φ₁) (r : FVec Ideal S10000x16 φ₂) (a : Fin 400) (b : Fin 16) :
    matmul dot_S400x10000_S10000x16_S400x16_1_0_0_1_n_n none l r (constant (F := Ideal) S400x16 .f32 0x00000000#32) (ix2 a b) = ∑ k : Fin 10000, l (ix2 a k) * r (ix2 k b) := by
  simp only [matmul]
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 a b) ((contrEquiv1 dot_S400x10000_S10000x16_S400x16_1_0_0_1_n_n 10000 rfl rfl).symm k) = ix2 a k := funext fun x => Fin.ext (by
    match x with
    | ⟨0, _⟩ => exact lhsB_0 _ _
    | ⟨1, _⟩ => exact (lhsB_1 _ _).trans hk)
  have er : dot_S400x10000_S10000x16_S400x16_1_0_0_1_n_n.rhsIdx (ix2 a b) ((contrEquiv1 dot_S400x10000_S10000x16_S400x16_1_0_0_1_n_n 10000 rfl rfl).symm k) = ix2 k b := funext fun x => Fin.ext (by
    match x with
    | ⟨0, _⟩ => exact (rhsB_0 _ _).trans hk
    | ⟨1, _⟩ => exact rhsB_1 _ _)
  rw [el, er]

theorem lhsC_0 (i : S400x7.Idx) (q : dot_S400x16_S16x7_S400x7_1_0_0_1_n_n.contr.Idx) : (dot_S400x16_S16x7_S400x7_1_0_0_1_n_n.lhsIdx i q 0).val = (i 0).val := by
  unfold DotDims.lhsIdx
  rw [dif_neg (show ¬(0 : Fin S400x16.rank) ∈ dot_S400x16_S16x7_S400x7_1_0_0_1_n_n.lhsBatch by decide), dif_pos (show (0 : Fin S400x16.rank) ∈ dot_S400x16_S16x7_S400x7_1_0_0_1_n_n.lhsNonContracting by decide)]
  rfl
theorem lhsC_1 (i : S400x7.Idx) (q : dot_S400x16_S16x7_S400x7_1_0_0_1_n_n.contr.Idx) : (dot_S400x16_S16x7_S400x7_1_0_0_1_n_n.lhsIdx i q 1).val = (q ⟨0, by decide⟩).val :=
  dot_S400x16_S16x7_S400x7_1_0_0_1_n_n.lhsIdx_val_of_single rfl i q
theorem rhsC_0 (i : S400x7.Idx) (q : dot_S400x16_S16x7_S400x7_1_0_0_1_n_n.contr.Idx) : (dot_S400x16_S16x7_S400x7_1_0_0_1_n_n.rhsIdx i q 0).val = (q ⟨0, by decide⟩).val :=
  dot_S400x16_S16x7_S400x7_1_0_0_1_n_n.rhsIdx_val_of_single rfl i q
theorem rhsC_1 (i : S400x7.Idx) (q : dot_S400x16_S16x7_S400x7_1_0_0_1_n_n.contr.Idx) : (dot_S400x16_S16x7_S400x7_1_0_0_1_n_n.rhsIdx i q 1).val = (i 1).val := by
  unfold DotDims.rhsIdx
  rw [dif_neg (show ¬(1 : Fin S16x7.rank) ∈ dot_S400x16_S16x7_S400x7_1_0_0_1_n_n.rhsBatch by decide), dif_pos (show (1 : Fin S16x7.rank) ∈ dot_S400x16_S16x7_S400x7_1_0_0_1_n_n.rhsNonContracting by decide)]
  rfl
/-- The matrix product into a zero accumulator, at an entry: the sum over the contracted axis. -/
theorem matC_apply {φ₁ φ₂ : FTy} (l : FVec Ideal S400x16 φ₁) (r : FVec Ideal S16x7 φ₂) (a : Fin 400) (b : Fin 7) :
    matmul dot_S400x16_S16x7_S400x7_1_0_0_1_n_n none l r (constant (F := Ideal) S400x7 .f32 0x00000000#32) (ix2 a b) = ∑ k : Fin 16, l (ix2 a k) * r (ix2 k b) := by
  simp only [matmul]
  rw [Ideal.matmul_constant_zero_apply, ← Equiv.sum_comp (contrEquiv1 dot_S400x16_S16x7_S400x7_1_0_0_1_n_n 16 rfl rfl).symm]
  refine Finset.sum_congr rfl fun k _ => ?_
  have hk := contrEquiv1_symm_val dot_S400x16_S16x7_S400x7_1_0_0_1_n_n 16 rfl rfl k
  have el : dot_S400x16_S16x7_S400x7_1_0_0_1_n_n.lhsIdx (ix2 a b) ((contrEquiv1 dot_S400x16_S16x7_S400x7_1_0_0_1_n_n 16 rfl rfl).symm k) = ix2 a k := funext fun x => Fin.ext (by
    match x with
    | ⟨0, _⟩ => exact lhsC_0 _ _
    | ⟨1, _⟩ => exact (lhsC_1 _ _).trans hk)
  have er : dot_S400x16_S16x7_S400x7_1_0_0_1_n_n.rhsIdx (ix2 a b) ((contrEquiv1 dot_S400x16_S16x7_S400x7_1_0_0_1_n_n 16 rfl rfl).symm k) = ix2 k b := funext fun x => Fin.ext (by
    match x with
    | ⟨0, _⟩ => exact (rhsC_0 _ _).trans hk
    | ⟨1, _⟩ => exact rhsC_1 _ _)
  rw [el, er]

theorem lhsD_0 (i : S400x7.Idx) (q : dot_S400x10000_S10000x7_S400x7_1_0_0_1_n_n.contr.Idx) : (dot_S400x10000_S10000x7_S400x7_1_0_0_1_n_n.lhsIdx i q 0).val = (i 0).val := by
  unfold DotDims.lhsIdx
  rw [dif_neg (show ¬(0 : Fin S400x10000.rank) ∈ dot_S400x10000_S10000x7_S400x7_1_0_0_1_n_n.lhsBatch by decide), dif_pos (show (0 : Fin S400x10000.rank) ∈ dot_S400x10000_S10000x7_S400x7_1_0_0_1_n_n.lhsNonContracting by decide)]
  rfl
theorem lhsD_1 (i : S400x7.Idx) (q : dot_S400x10000_S10000x7_S400x7_1_0_0_1_n_n.contr.Idx) : (dot_S400x10000_S10000x7_S400x7_1_0_0_1_n_n.lhsIdx i q 1).val = (q ⟨0, by decide⟩).val :=
  dot_S400x10000_S10000x7_S400x7_1_0_0_1_n_n.lhsIdx_val_of_single rfl i q
theorem rhsD_0 (i : S400x7.Idx) (q : dot_S400x10000_S10000x7_S400x7_1_0_0_1_n_n.contr.Idx) : (dot_S400x10000_S10000x7_S400x7_1_0_0_1_n_n.rhsIdx i q 0).val = (q ⟨0, by decide⟩).val :=
  dot_S400x10000_S10000x7_S400x7_1_0_0_1_n_n.rhsIdx_val_of_single rfl i q
theorem rhsD_1 (i : S400x7.Idx) (q : dot_S400x10000_S10000x7_S400x7_1_0_0_1_n_n.contr.Idx) : (dot_S400x10000_S10000x7_S400x7_1_0_0_1_n_n.rhsIdx i q 1).val = (i 1).val := by
  unfold DotDims.rhsIdx
  rw [dif_neg (show ¬(1 : Fin S10000x7.rank) ∈ dot_S400x10000_S10000x7_S400x7_1_0_0_1_n_n.rhsBatch by decide), dif_pos (show (1 : Fin S10000x7.rank) ∈ dot_S400x10000_S10000x7_S400x7_1_0_0_1_n_n.rhsNonContracting by decide)]
  rfl
/-- The matrix product into a zero accumulator, at an entry: the sum over the contracted axis. -/
theorem matD_apply {φ₁ φ₂ : FTy} (l : FVec Ideal S400x10000 φ₁) (r : FVec Ideal S10000x7 φ₂) (a : Fin 400) (b : Fin 7) :
    matmul dot_S400x10000_S10000x7_S400x7_1_0_0_1_n_n none l r (constant (F := Ideal) S400x7 .f32 0x00000000#32) (ix2 a b) = ∑ k : Fin 10000, l (ix2 a k) * r (ix2 k b) := by
  simp only [matmul]
  rw [Ideal.matmul_constant_zero_apply, ← Equiv.sum_comp (contrEquiv1 dot_S400x10000_S10000x7_S400x7_1_0_0_1_n_n 10000 rfl rfl).symm]
  refine Finset.sum_congr rfl fun k _ => ?_
  have hk := contrEquiv1_symm_val dot_S400x10000_S10000x7_S400x7_1_0_0_1_n_n 10000 rfl rfl k
  have el : dot_S400x10000_S10000x7_S400x7_1_0_0_1_n_n.lhsIdx (ix2 a b) ((contrEquiv1 dot_S400x10000_S10000x7_S400x7_1_0_0_1_n_n 10000 rfl rfl).symm k) = ix2 a k := funext fun x => Fin.ext (by
    match x with
    | ⟨0, _⟩ => exact lhsD_0 _ _
    | ⟨1, _⟩ => exact (lhsD_1 _ _).trans hk)
  have er : dot_S400x10000_S10000x7_S400x7_1_0_0_1_n_n.rhsIdx (ix2 a b) ((contrEquiv1 dot_S400x10000_S10000x7_S400x7_1_0_0_1_n_n 10000 rfl rfl).symm k) = ix2 k b := funext fun x => Fin.ext (by
    match x with
    | ⟨0, _⟩ => exact (rhsD_0 _ _).trans hk
    | ⟨1, _⟩ => exact rhsD_1 _ _)
  rw [el, er]

theorem lhsE_0 (i : S400x7.Idx) (q : dot_S400x7_S7x7_S400x7_1_0_0_1_n_n.contr.Idx) : (dot_S400x7_S7x7_S400x7_1_0_0_1_n_n.lhsIdx i q 0).val = (i 0).val := by
  unfold DotDims.lhsIdx
  rw [dif_neg (show ¬(0 : Fin S400x7.rank) ∈ dot_S400x7_S7x7_S400x7_1_0_0_1_n_n.lhsBatch by decide), dif_pos (show (0 : Fin S400x7.rank) ∈ dot_S400x7_S7x7_S400x7_1_0_0_1_n_n.lhsNonContracting by decide)]
  rfl
theorem lhsE_1 (i : S400x7.Idx) (q : dot_S400x7_S7x7_S400x7_1_0_0_1_n_n.contr.Idx) : (dot_S400x7_S7x7_S400x7_1_0_0_1_n_n.lhsIdx i q 1).val = (q ⟨0, by decide⟩).val :=
  dot_S400x7_S7x7_S400x7_1_0_0_1_n_n.lhsIdx_val_of_single rfl i q
theorem rhsE_0 (i : S400x7.Idx) (q : dot_S400x7_S7x7_S400x7_1_0_0_1_n_n.contr.Idx) : (dot_S400x7_S7x7_S400x7_1_0_0_1_n_n.rhsIdx i q 0).val = (q ⟨0, by decide⟩).val :=
  dot_S400x7_S7x7_S400x7_1_0_0_1_n_n.rhsIdx_val_of_single rfl i q
theorem rhsE_1 (i : S400x7.Idx) (q : dot_S400x7_S7x7_S400x7_1_0_0_1_n_n.contr.Idx) : (dot_S400x7_S7x7_S400x7_1_0_0_1_n_n.rhsIdx i q 1).val = (i 1).val := by
  unfold DotDims.rhsIdx
  rw [dif_neg (show ¬(1 : Fin S7x7.rank) ∈ dot_S400x7_S7x7_S400x7_1_0_0_1_n_n.rhsBatch by decide), dif_pos (show (1 : Fin S7x7.rank) ∈ dot_S400x7_S7x7_S400x7_1_0_0_1_n_n.rhsNonContracting by decide)]
  rfl
/-- The matrix product into a zero accumulator, at an entry: the sum over the contracted axis. -/
theorem matE_apply {φ₁ φ₂ : FTy} (l : FVec Ideal S400x7 φ₁) (r : FVec Ideal S7x7 φ₂) (a : Fin 400) (b : Fin 7) :
    matmul dot_S400x7_S7x7_S400x7_1_0_0_1_n_n none l r (constant (F := Ideal) S400x7 .f32 0x00000000#32) (ix2 a b) = ∑ k : Fin 7, l (ix2 a k) * r (ix2 k b) := by
  simp only [matmul]
  rw [Ideal.matmul_constant_zero_apply, ← Equiv.sum_comp (contrEquiv1 dot_S400x7_S7x7_S400x7_1_0_0_1_n_n 7 rfl rfl).symm]
  refine Finset.sum_congr rfl fun k _ => ?_
  have hk := contrEquiv1_symm_val dot_S400x7_S7x7_S400x7_1_0_0_1_n_n 7 rfl rfl k
  have el : dot_S400x7_S7x7_S400x7_1_0_0_1_n_n.lhsIdx (ix2 a b) ((contrEquiv1 dot_S400x7_S7x7_S400x7_1_0_0_1_n_n 7 rfl rfl).symm k) = ix2 a k := funext fun x => Fin.ext (by
    match x with
    | ⟨0, _⟩ => exact lhsE_0 _ _
    | ⟨1, _⟩ => exact (lhsE_1 _ _).trans hk)
  have er : dot_S400x7_S7x7_S400x7_1_0_0_1_n_n.rhsIdx (ix2 a b) ((contrEquiv1 dot_S400x7_S7x7_S400x7_1_0_0_1_n_n 7 rfl rfl).symm k) = ix2 k b := funext fun x => Fin.ext (by
    match x with
    | ⟨0, _⟩ => exact (rhsE_0 _ _).trans hk
    | ⟨1, _⟩ => exact rhsE_1 _ _)
  rw [el, er]

/-! ## Row reductions, keepdims and row broadcasts -/

/-- A column kept as `[400, 1]` and spread over the 7 columns reads the column's entry. -/
theorem bcol_apply {α : Type} (v : S400.Idx → α) (p : Fin 400) (q : Fin 7) :
    broadcastTo S400x7 (shapeCast S400x1 v shapeCasts_S400_S400x1) broadcasts_S400x1_S400x7 (ix2 p q) = v (ix1 p) :=
  (broadcastTo_a1_ab_apply _ broadcasts_S400x1_S400x7 p q).trans (shapeCast_a_a1_apply v shapeCasts_S400_S400x1 p 0)

/-- A row's maximum over the 7 columns, folded from the starting word. -/
theorem rmax_apply (o : FVec Ideal S400x7 .f32) (hφ : FKind.Formats .f32)
    (hacc : (0xFF800000#32 : BitVec 32) = FKind.maximumf.neutral .f32 hφ) (p : Fin 400) :
    multiReduction .maximumf [1] S400 o 0xFF800000#32 reduces_S400x7_S400 hφ hacc (ix1 p) = Spec.rowMax (fun q => o (ix2 p q)) :=
  (Ideal.multiReduction_maximumf_single o 0xFF800000#32 reduces_S400x7_S400 hφ hacc (ix1 p)).trans
    (congrArg (fun f : Fin 7 → EReal => (Finset.univ : Finset (Fin 7)).fold max Spec.ninfW f)
      (funext fun k => congrArg o (funext fun a => Fin.ext (by match a with | ⟨0, _⟩ => rfl | ⟨1, _⟩ => rfl))))

/-- A row's sum over the 7 columns. -/
theorem rsum_apply (e : FVec Ideal S400x7 .f32) (hφ : FKind.Formats .f32)
    (hacc : (0x00000000#32 : BitVec 32) = FKind.add.neutral .f32 hφ) (p : Fin 400) :
    multiReduction .add [1] S400 e 0x00000000#32 reduces_S400x7_S400 hφ hacc (ix1 p) = ∑ q : Fin 7, e (ix2 p q) :=
  (Ideal.multiReduction_add_single e 0x00000000#32 reduces_S400x7_S400 hφ hacc (ix1 p)).trans
    (Finset.sum_congr rfl fun k _ => congrArg e (funext fun a => Fin.ext (by match a with | ⟨0, _⟩ => rfl | ⟨1, _⟩ => rfl)))

/-- A bias row `[1, 7]` spread over the 400 rows reads the bias at the column. -/
theorem brow7_apply (v : FVec Ideal S1x7 .f32) (p : Fin 400) (q : Fin 7) :
    broadcastTo S400x7 (shapeCast S1x7 v shapeCasts_S1x7_S1x7) broadcasts_S1x7_S400x7 (ix2 p q) = v (ix2 (0 : Fin 1) q) :=
  (broadcastTo_1b_ab_apply _ broadcasts_S1x7_S400x7 p q).trans (congrFun (shapeCast_self v shapeCasts_S1x7_S1x7) _)

/-- A bias row `[1, 16]` spread over the 400 rows reads the bias at the column. -/
theorem brow16_apply (v : FVec Ideal S1x16 .f32) (p : Fin 400) (j : Fin 16) :
    broadcastTo S400x16 (shapeCast S1x16 v shapeCasts_S1x16_S1x16) broadcasts_S1x16_S400x16 (ix2 p j) = v (ix2 (0 : Fin 1) j) :=
  (broadcastTo_1b_ab_apply _ broadcasts_S1x16_S400x16 p j).trans (congrFun (shapeCast_self v shapeCasts_S1x16_S1x16) _)

/-- The adjacency block `[1, 400, 10000]` read as `[400, 10000]`. -/
theorem adj_apply (x0 : FVec Ideal S1x400x10000 .f32) (p : Fin 400) (k : Fin 10000) :
    shapeCast S400x10000 x0 shapeCasts_S1x400x10000_S400x10000 (ix2 p k) = x0 (ix3 (0 : Fin 1) p k) :=
  shapeCast_1ab_ab_apply x0 shapeCasts_S1x400x10000_S400x10000 p k

/-! ## The features' product (point 0) -/

theorem pay1_apply (x : FVec Ideal S10000x128 .f32) (W1 : FVec Ideal S128x16 .f32) (r : Fin 10000) (j : Fin 16) :
    k0_pay1 (F := Ideal) x W1 (ix2 r j) = Spec.prod1 (fun k => x (ix2 r k)) (fun k j => W1 (ix2 k j)) j := by
  unfold k0_pay1
  rw [shapeCast_self]
  exact matA_apply x W1 r j

/-! ## A block of the first layer's output (points 0 … 24) -/

theorem pay2_apply (x0 : FVec Ideal S1x400x10000 .f32) (s1 : FVec Ideal S10000x16 .f32) (b1r : FVec Ideal S1x16 .f32)
    (W2 : FVec Ideal S16x7 .f32) (p : Fin 400) (q : Fin 7) :
    k0_pay2 (F := Ideal) x0 s1 b1r W2 (ix2 p q)
      = Spec.lay1 (fun k => x0 (ix3 (0 : Fin 1) p k)) (fun k j => s1 (ix2 k j)) (fun j => b1r (ix2 (0 : Fin 1) j)) (fun j q => W2 (ix2 j q)) q := by
  unfold k0_pay2
  rw [shapeCast_self]
  refine (matC_apply _ W2 p q).trans ?_
  unfold Spec.lay1
  refine Finset.sum_congr rfl fun j _ => congrArg (· * W2 (ix2 j q)) ?_
  show max (_ + _) _ = _
  refine congrArg₂ max (congrArg₂ (· + ·) ?_ (brow16_apply b1r p j)) rfl
  refine (matB_apply _ _ p j).trans (Finset.sum_congr rfl fun k _ => congrArg (· * s1 (ix2 k j)) (adj_apply x0 p k))

/-! ## A block of the result (points 25 … 49) -/

/-- The linear part: adjacency block times the first layer's output, plus bias, times the last weights, plus bias. -/
def lin2Vec (x0 : FVec Ideal S1x400x10000 .f32) (s2 : FVec Ideal S10000x7 .f32) (b2r : FVec Ideal S1x7 .f32)
    (WL : FVec Ideal S7x7 .f32) (bLr : FVec Ideal S1x7 .f32) : FVec Ideal S400x7 .f32 :=
  addf (matmul dot_S400x7_S7x7_S400x7_1_0_0_1_n_n none
      (addf (matmul dot_S400x10000_S10000x7_S400x7_1_0_0_1_n_n none
          (truncf .bf16 (shapeCast S400x10000 x0 shapeCasts_S1x400x10000_S400x10000) bitsLt_bf16_f32)
          (truncf .bf16 s2 bitsLt_bf16_f32) (constant (F := Ideal) S400x7 .f32 0x00000000#32))
        (broadcastTo S400x7 (shapeCast S1x7 b2r shapeCasts_S1x7_S1x7) broadcasts_S1x7_S400x7))
      WL (constant (F := Ideal) S400x7 .f32 0x00000000#32))
    (broadcastTo S400x7 (shapeCast S1x7 bLr shapeCasts_S1x7_S1x7) broadcasts_S1x7_S400x7)

theorem lin2Vec_apply (x0 : FVec Ideal S1x400x10000 .f32) (s2 : FVec Ideal S10000x7 .f32) (b2r : FVec Ideal S1x7 .f32)
    (WL : FVec Ideal S7x7 .f32) (bLr : FVec Ideal S1x7 .f32) (p : Fin 400) (q : Fin 7) :
    lin2Vec x0 s2 b2r WL bLr (ix2 p q)
      = Spec.lin2 (fun k => x0 (ix3 (0 : Fin 1) p k)) (fun k j => s2 (ix2 k j)) (fun j => b2r (ix2 (0 : Fin 1) j)) (fun j q => WL (ix2 j q))
          (fun q => bLr (ix2 (0 : Fin 1) q)) q := by
  unfold lin2Vec Spec.lin2
  show _ + _ = _
  refine congrArg₂ (· + ·) ?_ (brow7_apply bLr p q)
  refine (matE_apply _ WL p q).trans (Finset.sum_congr rfl fun j _ => congrArg (· * WL (ix2 j q)) ?_)
  show _ + _ = _
  refine congrArg₂ (· + ·) ?_ (brow7_apply b2r p j)
  refine (matD_apply _ _ p j).trans (Finset.sum_congr rfl fun k _ => congrArg (· * s2 (ix2 k j)) (adj_apply x0 p k))

/-- A block shifted by its rows' maxima. -/
def shiftVec (o : FVec Ideal S400x7 .f32) : FVec Ideal S400x7 .f32 :=
  subf o (broadcastTo S400x7 (shapeCast S400x1
    (multiReduction .maximumf [1] S400 o 0xFF800000#32 reduces_S400x7_S400 (.inl rfl) rfl) shapeCasts_S400_S400x1) broadcasts_S400x1_S400x7)

theorem shiftVec_apply (o : FVec Ideal S400x7 .f32) (p : Fin 400) (q : Fin 7) :
    shiftVec o (ix2 p q) = o (ix2 p q) - Spec.rowMax (fun q' => o (ix2 p q')) :=
  congrArg (o (ix2 p q) - ·) ((bcol_apply _ p q).trans (rmax_apply o _ _ p))

/-- The row-wise log-softmax of a block. -/
def lsmVec (o : FVec Ideal S400x7 .f32) : FVec Ideal S400x7 .f32 :=
  subf (shiftVec o) (broadcastTo S400x7 (log (shapeCast S400x1
    (multiReduction .add [1] S400 (exp (shiftVec o)) 0x00000000#32 reduces_S400x7_S400 (.inl rfl) rfl) shapeCasts_S400_S400x1))
    broadcasts_S400x1_S400x7)

theorem lsmVec_apply (o : FVec Ideal S400x7 .f32) (p : Fin 400) (q : Fin 7) :
    lsmVec o (ix2 p q) = Spec.lsm (fun q' => o (ix2 p q')) q := by
  unfold lsmVec Spec.lsm
  show shiftVec o (ix2 p q) - _ = _
  rw [shiftVec_apply]
  refine congrArg (fun z : EReal => (o (ix2 p q) - Spec.rowMax (fun q' => o (ix2 p q'))) - z) ?_
  refine ((broadcastTo_a1_ab_apply _ broadcasts_S400x1_S400x7 p q).trans
    (congrArg Ideal.log ((shapeCast_a_a1_apply _ shapeCasts_S400_S400x1 p 0).trans (rsum_apply _ _ _ p)))).trans ?_
  refine congrArg Ideal.log (Finset.sum_congr rfl fun q' _ => ?_)
  show Ideal.exp (shiftVec o (ix2 p q')) = _
  rw [shiftVec_apply]

theorem pay3_eq (x0 : FVec Ideal S1x400x10000 .f32) (s2 : FVec Ideal S10000x7 .f32) (b2r : FVec Ideal S1x7 .f32)
    (WL : FVec Ideal S7x7 .f32) (bLr : FVec Ideal S1x7 .f32) :
    k0_pay3 (F := Ideal) x0 s2 b2r WL bLr = lsmVec (lin2Vec x0 s2 b2r WL bLr) := rfl

theorem pay3_apply (x0 : FVec Ideal S1x400x10000 .f32) (s2 : FVec Ideal S10000x7 .f32) (b2r : FVec Ideal S1x7 .f32)
    (WL : FVec Ideal S7x7 .f32) (bLr : FVec Ideal S1x7 .f32) (p : Fin 400) (q : Fin 7) :
    k0_pay3 (F := Ideal) x0 s2 b2r WL bLr (ix2 p q)
      = Spec.lsm (Spec.lin2 (fun k => x0 (ix3 (0 : Fin 1) p k)) (fun k j => s2 (ix2 k j)) (fun j => b2r (ix2 (0 : Fin 1) j))
          (fun j q => WL (ix2 j q)) (fun q => bLr (ix2 (0 : Fin 1) q))) q := by
  rw [pay3_eq, lsmVec_apply]
  exact congrArg (fun f => Spec.lsm f q) (funext fun q' => lin2Vec_apply x0 s2 b2r WL bLr p q')

end Cert.KernelIdeal.Pay

end
-- ==== Proof.RefVal.lean ====
import proofs.«114416_g2834678415609_cont_sun_c4_672_25_alg».proof.Proof.RefReadP
import proofs.«114416_g2834678415609_cont_sun_c4_672_25_alg».proof.Proof.Spec
import Idealize.ShloMosaic.Lib.ValueIdx
import Idealize.ShloMosaic.PureOps.Ideal.Laws

/-!
  The reference read stage by stage at an entry, over the extended reals: each stage is one row of the network
  (`Cert.Spec`) of the corresponding row of an adjacency matrix.
-/

set_option maxRecDepth 16384

noncomputable section

open scoped BigOperators

namespace Cert.ReferenceIdeal.RefValue

open Idealize.ShloMosaic Idealize.ShloMosaic.ValueIdx Cert.ReferenceIdeal Cert.ReferenceIdeal.Gen Cert.ReferenceIdeal.ReadP

variable (a0 : FVec Ideal S10000x128 .f32) (a1 : FVec Ideal S2x10000x10000 .f32) (a2 : FVec Ideal S128x16 .f32)
  (a3 : FVec Ideal S16 .f32) (a4 : FVec Ideal S16x7 .f32) (a5 : FVec Ideal S7 .f32) (a6 : FVec Ideal S7x7 .f32) (a7 : FVec Ideal S7 .f32)

/-- Row `r` of the first adjacency matrix. -/
theorem adj0_apply (r k : Fin 10000) : val_main_v1 (F := Ideal) a1 (ix2 r k) = a1 (ix3 (0 : Fin 2) r k) := by
  rw [val_main_v1_apply, val_main_v0_apply]
  refine congrArg a1 (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- Row `r` of the second adjacency matrix. -/
theorem adj1_apply (r k : Fin 10000) : val_main_v9 (F := Ideal) a1 (ix2 r k) = a1 (ix3 (1 : Fin 2) r k) := by
  rw [val_main_v9_apply, val_main_v8_apply]
  refine congrArg a1 (funext fun a => Fin.ext ?_)
  have hr := r.isLt
  have hk := k.isLt
  match a with
  | ⟨0, _⟩ => rfl
  | ⟨1, _⟩ => show (r.val * 10000 + k.val) / 10000 % 10000 = r.val; omega
  | ⟨2, _⟩ => show (r.val * 10000 + k.val) % 10000 = k.val; omega

/-- The features times the first weight matrix. -/
theorem v2_apply (r : Fin 10000) (j : Fin 16) :
    val_main_v2 (F := Ideal) a0 a2 (ix2 r j) = Spec.prod1 (fun k => a0 (ix2 r k)) (fun k j => a2 (ix2 k j)) j := by
  rw [val_main_v2_apply]
  unfold Spec.prod1
  refine Finset.sum_congr rfl fun k _ => congrArg₂ (· * ·) (congrArg a0 ?_) (congrArg a2 ?_)
  · exact funext fun a => Fin.ext (by match a with | ⟨0, _⟩ => rfl | ⟨1, _⟩ => rfl)
  · exact funext fun a => Fin.ext (by match a with | ⟨0, _⟩ => rfl | ⟨1, _⟩ => rfl)

theorem b1_apply (r : Fin 10000) (j : Fin 16) : val_main_v5 (F := Ideal) a3 (ix2 r j) = a3 (ix1 j) := by
  rw [val_main_v5_apply, val_main_v4_apply]
  exact congrArg a3 (funext fun a => Fin.ext (by match a with | ⟨0, _⟩ => rfl))

theorem b2_apply (r : Fin 10000) (j : Fin 7) : val_main_v13 (F := Ideal) a5 (ix2 r j) = a5 (ix1 j) := by
  rw [val_main_v13_apply, val_main_v12_apply]
  exact congrArg a5 (funext fun a => Fin.ext (by match a with | ⟨0, _⟩ => rfl))

theorem bL_apply (r : Fin 10000) (j : Fin 7) : val_main_v17 (F := Ideal) a7 (ix2 r j) = a7 (ix1 j) := by
  rw [val_main_v17_apply, val_main_v16_apply]
  exact congrArg a7 (funext fun a => Fin.ext (by match a with | ⟨0, _⟩ => rfl))

/-- The rectified first layer before its second weight matrix. -/
theorem v7_apply (r : Fin 10000) (j : Fin 16) :
    val_main_v7 (F := Ideal) a0 a1 a2 a3 (ix2 r j)
      = max ((∑ k : Fin 10000, a1 (ix3 (0 : Fin 2) r k) * val_main_v2 (F := Ideal) a0 a2 (ix2 k j)) + a3 (ix1 j)) Spec.zeroW := by
  show max (val_main_v3 (F := Ideal) a0 a1 a2 (ix2 r j) + val_main_v5 (F := Ideal) a3 (ix2 r j)) (val_main_call0_v0 (F := Ideal) (ix2 r j)) = _
  refine congrArg₂ max (congrArg₂ (· + ·) ?_ (b1_apply a3 r j)) ((val_main_call0_v0_apply _).trans rfl)
  rw [val_main_v3_apply]
  refine Finset.sum_congr rfl fun k _ => congrArg₂ (· * ·) ?_ (congrArg (val_main_v2 (F := Ideal) a0 a2) ?_)
  · refine (congrArg (val_main_v1 (F := Ideal) a1) ?_).trans (adj0_apply a1 r k)
    exact funext fun a => Fin.ext (by match a with | ⟨0, _⟩ => rfl | ⟨1, _⟩ => rfl)
  · exact funext fun a => Fin.ext (by match a with | ⟨0, _⟩ => rfl | ⟨1, _⟩ => rfl)

/-- The first layer's output. -/
theorem v10_apply (r : Fin 10000) (q : Fin 7) :
    val_main_v10 (F := Ideal) a0 a1 a2 a3 a4 (ix2 r q)
      = Spec.lay1 (fun k => a1 (ix3 (0 : Fin 2) r k)) (fun k j => val_main_v2 (F := Ideal) a0 a2 (ix2 k j)) (fun j => a3 (ix1 j))
          (fun j q => a4 (ix2 j q)) q := by
  rw [val_main_v10_apply]
  unfold Spec.lay1
  refine Finset.sum_congr rfl fun j _ => congrArg₂ (· * ·) ?_ (congrArg a4 ?_)
  · refine (congrArg (val_main_v7 (F := Ideal) a0 a1 a2 a3) ?_).trans (v7_apply a0 a1 a2 a3 r j)
    exact funext fun a => Fin.ext (by match a with | ⟨0, _⟩ => rfl | ⟨1, _⟩ => rfl)
  · exact funext fun a => Fin.ext (by match a with | ⟨0, _⟩ => rfl | ⟨1, _⟩ => rfl)

/-- The final linear layer. -/
theorem v18_apply (r : Fin 10000) (q : Fin 7) :
    val_main_v18 (F := Ideal) a0 a1 a2 a3 a4 a5 a6 a7 (ix2 r q)
      = Spec.lin2 (fun k => a1 (ix3 (1 : Fin 2) r k)) (fun k j => val_main_v10 (F := Ideal) a0 a1 a2 a3 a4 (ix2 k j)) (fun j => a5 (ix1 j))
          (fun j q => a6 (ix2 j q)) (fun q => a7 (ix1 q)) q := by
  show val_main_v15 (F := Ideal) a0 a1 a2 a3 a4 a5 a6 (ix2 r q) + val_main_v17 (F := Ideal) a7 (ix2 r q) = _
  unfold Spec.lin2
  refine congrArg₂ (· + ·) ?_ (bL_apply a7 r q)
  rw [val_main_v15_apply]
  refine Finset.sum_congr rfl fun j _ => congrArg₂ (· * ·) ?_ (congrArg a6 ?_)
  · refine (congrArg (val_main_v14 (F := Ideal) a0 a1 a2 a3 a4 a5) (?_ : _ = ix2 r j)).trans ?_
    · exact funext fun a => Fin.ext (by match a with | ⟨0, _⟩ => rfl | ⟨1, _⟩ => rfl)
    show val_main_v11 (F := Ideal) a0 a1 a2 a3 a4 (ix2 r j) + val_main_v13 (F := Ideal) a5 (ix2 r j) = _
    refine congrArg₂ (· + ·) ?_ (b2_apply a5 r j)
    rw [val_main_v11_apply]
    refine Finset.sum_congr rfl fun k _ => congrArg₂ (· * ·) ?_ (congrArg (val_main_v10 (F := Ideal) a0 a1 a2 a3 a4) ?_)
    · refine (congrArg (val_main_v9 (F := Ideal) a1) ?_).trans (adj1_apply a1 r k)
      exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl | ⟨1, _⟩ => rfl)

/-- The one-axis reduction witness at the reference's shapes. -/
theorem red7 : S10000x7.Reduces [1] S10000 := by decide

/-- The host's maximum over the 7 columns of row `r`, folded from its initial value. -/
theorem rmaxRef (x : FVec Ideal S10000x7 .f32) (init : S_.Idx → Ideal .f32) (h' : S10000x7.ReducesTo [1] S10000)
    (h : S10000x7.Reduces [1] S10000) (hu : 0 < S_.numel) (r : Fin 10000) :
    Host.reduce FloatOps.maximumf x init h' hu (ix1 r)
      = (Finset.univ : Finset (Fin 7)).fold max (init (Shape.Idx.first hu)) (fun k => x (ix2 r k)) := by
  rw [Host.reduce_eq_fold_single FloatOps.maximumf x _ h' h hu]
  have hf : (x ∘ h.lift (ix1 r)) = fun k : Fin 7 => x (ix2 r k) :=
    funext fun k => congrArg x (funext fun a => Fin.ext (by match a with | ⟨0, _⟩ => rfl | ⟨1, _⟩ => rfl))
  exact congrArg (fun f => Finset.fold max (init (Shape.Idx.first hu)) f (Finset.univ : Finset (Fin 7))) hf

/-- The row maximum the reference shifts by: the fold from minus infinity, taken once more against minus infinity. -/
theorem mx_apply (r : Fin 10000) (q : Fin 7) :
    val_main_call1_v4 (F := Ideal) a0 a1 a2 a3 a4 a5 a6 a7 (ix2 r q) = Spec.rowMax (fun q' => val_main_v18 (F := Ideal) a0 a1 a2 a3 a4 a5 a6 a7 (ix2 r q')) := by
  rw [val_main_call1_v4_apply, val_main_call1_v3_apply]
  have hi : idx_main_call1_v3 (idx_main_call1_v4 (ix2 r q)) = ix1 r :=
    funext fun a => Fin.ext (by match a with | ⟨0, _⟩ => rfl)
  rw [hi]
  show max (val_main_call1_v1 (F := Ideal) (ix1 r)) (val_main_call1_v0 (F := Ideal) a0 a1 a2 a3 a4 a5 a6 a7 (ix1 r)) = _
  refine (congrArg₂ max ((val_main_call1_v1_apply _).trans rfl) ?_).trans (Spec.max_ninf_rowMax _)
  unfold val_main_call1_v0
  exact rmaxRef (val_main_v18 (F := Ideal) a0 a1 a2 a3 a4 a5 a6 a7) _ reducesTo_S10000x7_S10000_d1 red7 h_S_ r

theorem sh_apply (r : Fin 10000) (q : Fin 7) :
    val_main_call1_v5 (F := Ideal) a0 a1 a2 a3 a4 a5 a6 a7 (ix2 r q)
      = val_main_v18 (F := Ideal) a0 a1 a2 a3 a4 a5 a6 a7 (ix2 r q) - Spec.rowMax (fun q' => val_main_v18 (F := Ideal) a0 a1 a2 a3 a4 a5 a6 a7 (ix2 r q')) :=
  congrArg (val_main_v18 (F := Ideal) a0 a1 a2 a3 a4 a5 a6 a7 (ix2 r q) - ·) (mx_apply a0 a1 a2 a3 a4 a5 a6 a7 r q)

/-- The reference's result: the log-softmax of the final linear layer's row. -/
theorem v19_apply (r : Fin 10000) (q : Fin 7) :
    val_main_v19 (F := Ideal) a0 a1 a2 a3 a4 a5 a6 a7 (ix2 r q) = Spec.lsm (fun q' => val_main_v18 (F := Ideal) a0 a1 a2 a3 a4 a5 a6 a7 (ix2 r q')) q := by
  show val_main_call1_v5 (F := Ideal) a0 a1 a2 a3 a4 a5 a6 a7 (ix2 r q) - val_main_call1_v10 (F := Ideal) a0 a1 a2 a3 a4 a5 a6 a7 (ix2 r q) = _
  unfold Spec.lsm
  refine congrArg₂ (· - ·) (sh_apply a0 a1 a2 a3 a4 a5 a6 a7 r q) ?_
  rw [val_main_call1_v10_apply]
  show Ideal.log (val_main_call1_v8 (F := Ideal) a0 a1 a2 a3 a4 a5 a6 a7 _) = _
  rw [val_main_call1_v8_apply, val_main_call1_v7_apply]
  refine congrArg Ideal.log ?_
  refine (congrArg₂ (· + ·) (Ideal.ofBits_zero_f32) (Finset.sum_congr rfl fun q' _ => ?_)).trans (zero_add _)
  show Ideal.exp (val_main_call1_v5 (F := Ideal) a0 a1 a2 a3 a4 a5 a6 a7 _) = _
  refine congrArg Ideal.exp ((congrArg (val_main_call1_v5 (F := Ideal) a0 a1 a2 a3 a4 a5 a6 a7) (?_ : _ = ix2 r q')).trans (sh_apply a0 a1 a2 a3 a4 a5 a6 a7 r q'))
  exact funext fun a => Fin.ext (by match a with | ⟨0, _⟩ => rfl | ⟨1, _⟩ => rfl)

end Cert.ReferenceIdeal.RefValue

end
-- ==== Proof.Glue.lean ====
import proofs.«114416_g2834678415609_cont_sun_c4_672_25_alg».proof.Proof.Body.Final
import proofs.«114416_g2834678415609_cont_sun_c4_672_25_alg».proof.Proof.Body.Blocks
import proofs.«114416_g2834678415609_cont_sun_c4_672_25_alg».proof.Proof.KPay
import proofs.«114416_g2834678415609_cont_sun_c4_672_25_alg».proof.Proof.RefVal

/-!
  The two programs compute one function. Point by point the kernel's carried buffers hold the reference's stages: the
  first scratch buffer the features times the first weight matrix, the second the first layer's output, and the result
  array the log-softmax of the final linear layer — each read row by row (`Cert.Spec`) off the same argument arrays.
-/

set_option maxRecDepth 16384

noncomputable section

open scoped BigOperators

namespace Cert.Glue

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (c : Dev nD)

/-- The first scratch buffer holds the reference's product of the features with the first weight matrix. -/
theorem s1v_eq (r : Fin 10000) (j : Fin 16) :
    s1v m c (ix2 r j) = Cert.ReferenceIdeal.ReadP.val_main_v2 (F := Ideal) (m ((c : Thread nD τ).loc main_arg0)) (m ((c : Thread nD τ).loc main_arg2)) (ix2 r j) := by
  rw [Cert.ReferenceIdeal.RefValue.v2_apply]
  unfold s1v
  refine (Cert.KernelIdeal.Pay.pay1_apply _ _ r j).trans ?_
  exact Spec.prod1_congr (fun k => iblk1_apply m c _ r k) (fun k j => iblk2_apply m c _ k j) j

/-- The second scratch buffer, once filled, holds the reference's first-layer output. -/
theorem S2_eq (r : Fin 10000) (q : Fin 7) :
    S2 m c (ix2 r q) = Cert.ReferenceIdeal.ReadP.val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  rw [Cert.ReferenceIdeal.RefValue.v10_apply]
  unfold S2 s2blk
  have hr := r.isLt
  refine (Cert.KernelIdeal.Pay.pay2_apply _ _ _ _ ⟨r.val % 400, Nat.mod_lt _ (by omega)⟩ q).trans ?_
  refine Spec.lay1_congr (fun k => iblk0_apply m c _ _ k (0 : Fin 2) r ?_ ?_) (fun k j => s1v_eq m c k j)
    (fun j => iblk3_apply m c _ j) (fun j q => iblk4_apply m c _ j q) q
  · show 0 = (r.val / 400) / 25; omega
  · show r.val = 400 * ((r.val / 400) % 25) + r.val % 400; omega

/-- The result array holds the reference's result. -/
theorem OUT_eq (r : Fin 10000) (q : Fin 7) :
    OUT m c (ix2 r q) = Cert.ReferenceIdeal.ReadP.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r q) := by
  rw [Cert.ReferenceIdeal.RefValue.v19_apply]
  unfold OUT outblk
  have hr := r.isLt
  refine (Cert.KernelIdeal.Pay.pay3_apply _ _ _ _ _ ⟨r.val % 400, Nat.mod_lt _ (by omega)⟩ q).trans ?_
  refine Spec.lsm_congr (fun q' => ?_) q
  rw [Cert.ReferenceIdeal.RefValue.v18_apply]
  refine Spec.lin2_congr (fun k => iblk0_apply m c _ _ k (1 : Fin 2) r ?_ ?_) (fun k j => S2_eq m c k j)
    (fun j => iblk5_apply m c _ j) (fun j q => iblk6_apply m c _ j q) (fun q => iblk7_apply m c _ q) q'
  · show 1 = (r.val / 400 + 25) / 25; omega
  · show r.val = 400 * ((r.val / 400 + 25) % 25) + r.val % 400; omega

/-- The kernel's result array is the reference's result term of the same argument arrays. -/
theorem final_eq :
    (Cert.ReferenceIdeal.ReadP.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S10000x7.Idx → EReal) = finalArr m c := by
  funext i
  obtain ⟨r, q, rfl⟩ : ∃ (r : Fin 10000) (q : Fin 7), i = ix2 r q := ⟨i 0, i 1, eq_ix2 i⟩
  exact (OUT_eq m c r q).symm.trans (finalArr_apply m c (ix2 r q)).symm

end Cert.Glue

end
-- ==== Proof.lean ====
/-
  A two-layer graph convolution over a dense pair of adjacency matrices, a final linear layer and a row-wise log-softmax:
  out = log_softmax((adj₁ · (relu(adj₀ · (x · W₁) + b₁) · W₂) + b₂) · W_L + b_L).

  The kernel walks the two adjacency matrices in 50 blocks of 400 rows. Point 0 computes x · W₁ once into a scratch
  buffer; points 0 … 24 compute, block by block, the rows of the first layer's output into a second scratch buffer;
  points 25 … 49 compute, block by block, the rows of the result into the output's buffer, which is written back once,
  after the last point. The reference computes the same stages on whole arrays.

  The proof follows the blocks. A point's effect on the two scratch buffers and on the output's buffer is a relation
  between what the point finds and what it leaves: rows of the point's block are replaced, every other row is kept. By
  induction on the point the second scratch buffer holds the first `t` blocks of the first layer's output after `t`
  points, and the output's buffer the first `t - 25` blocks of the result; after point 49 every row is in place. Over the
  extended reals each block row is the same function of the argument arrays as the reference's row: the matrix
  products are the same sums over the contracted axis, a change of float format is the identity, the row maximum is
  the same fold from minus infinity (the reference takes one more maximum with minus infinity, which changes nothing),
  and the sum of exponentials starts from the same zero. No finiteness of the inputs is used.

  The three frames: both kernels' from the same run (the body's three cases, each run on whole buffers), the reference's
  from its run with the result dropped. The idealization rewrote nothing, so it preserves the kernel trivially.
-/
import proofs.«114416_g2834678415609_cont_sun_c4_672_25_alg».proof.Defs
import proofs.«114416_g2834678415609_cont_sun_c4_672_25_alg».proof.Proof.Gen.Kernel
import proofs.«114416_g2834678415609_cont_sun_c4_672_25_alg».proof.Proof.Gen.KernelIdeal
import proofs.«114416_g2834678415609_cont_sun_c4_672_25_alg».proof.Proof.Gen.ReferenceIdeal
import proofs.«114416_g2834678415609_cont_sun_c4_672_25_alg».proof.Proof.Gen.Pre_finite_inputs
import proofs.«114416_g2834678415609_cont_sun_c4_672_25_alg».proof.Proof.BodyK.Frame
import proofs.«114416_g2834678415609_cont_sun_c4_672_25_alg».proof.Proof.Body.Final
import proofs.«114416_g2834678415609_cont_sun_c4_672_25_alg».proof.Proof.RefRunP
import proofs.«114416_g2834678415609_cont_sun_c4_672_25_alg».proof.Proof.Glue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the kernel over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference runs and leaves its arguments as launched: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories agreeing on the arguments both programs end with one result: the kernel's result array after its
    single write-back is the reference's composed term of the same arrays, entry by entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.finalArr m c, Cert.KernelIdeal.Hand.run_full m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v19_eq]
  obtain ⟨h0, h1, h2, h3, h4, h5, h6, h7⟩ := hagree c
  rw [h0, h1, h2, h3, h4, h5, h6, h7]
  exact Cert.Glue.final_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
